-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x5x5x256x256 : Shape := ⟨5, ![2, 5, 5, 256, 256]⟩
abbrev S2x32x256x256 : Shape := ⟨4, ![2, 32, 256, 256]⟩
abbrev S_ : Shape := ⟨0, ![]⟩

class Facts : Prop where
  bcast_S_S2x5x5x256x256 : S_.BroadcastsInDim S2x5x5x256x256 (![] : Fin 0 → Fin S2x5x5x256x256.rank)
  reducesTo_S2x5x5x256x256_S_d0_1_2_3_4 : S2x5x5x256x256.ReducesTo [0, 1, 2, 3, 4] S_
  h_S_ : 0 < S_.numel
  bcast_S_S2x32x256x256 : S_.BroadcastsInDim S2x32x256x256 (![] : Fin 0 → Fin S2x32x256x256.rank)
  reducesTo_S2x32x256x256_S_d0_1_2_3 : S2x32x256x256.ReducesTo [0, 1, 2, 3] S_

variable [Facts]

def fn {F : FTy → Type} [FloatOps F] (main_arg0 : FVec F S2x5x5x256x256 .f32) (main_arg1 : FVec F S2x32x256x256 .f32) : IVec S_ 1 :=
  let main_v0 : FVec F S2x5x5x256x256 .f32 := Host.absf main_arg0
  let main_cst : FVec F S_ .f32 := constant S_ .f32 0x7F800000#32
  let main_v1 : FVec F S2x5x5x256x256 .f32 := broadcastInDim S2x5x5x256x256 ![] bcast_S_S2x5x5x256x256 main_cst
  let main_v2 : IVec S2x5x5x256x256 1 := cmpf .olt main_v0 main_v1
  let main_c : IVec S_ 1 := constantI S_ 1 1#1
  let main_v3 : IVec S_ 1 := (fun x v => Host.reduce IntOp.andi x v reducesTo_S2x5x5x256x256_S_d0_1_2_3_4 h_S_) main_v2 main_c
  let main_v4 : FVec F S2x32x256x256 .f32 := Host.absf main_arg1
  let main_cst_0 : FVec F S_ .f32 := constant S_ .f32 0x7F800000#32
  let main_v5 : FVec F S2x32x256x256 .f32 := broadcastInDim S2x32x256x256 ![] bcast_S_S2x32x256x256 main_cst_0
  let main_v6 : IVec S2x32x256x256 1 := cmpf .olt main_v4 main_v5
  let main_c_1 : IVec S_ 1 := constantI S_ 1 1#1
  let main_v7 : IVec S_ 1 := (fun x v => Host.reduce IntOp.andi x v reducesTo_S2x32x256x256_S_d0_1_2_3 h_S_) main_v6 main_c_1
  let main_v8 : IVec S_ 1 := andi main_v3 main_v7
  main_v8
-- ==== Kernel.lean ====
abbrev S2x5x5x256x256 : Shape := ⟨5, ![2, 5, 5, 256, 256]⟩
abbrev S2x32x256x256 : Shape := ⟨4, ![2, 32, 256, 256]⟩
abbrev S2x25x256x256 : Shape := ⟨4, ![2, 25, 256, 256]⟩
abbrev S1x8x256x256 : Shape := ⟨4, ![1, 8, 256, 256]⟩
abbrev S1x25x256x256 : Shape := ⟨4, ![1, 25, 256, 256]⟩
abbrev S8x256x256 : Shape := ⟨3, ![8, 256, 256]⟩
abbrev S8x2x256 : Shape := ⟨3, ![8, 2, 256]⟩
abbrev S8x258x256 : Shape := ⟨3, ![8, 258, 256]⟩
abbrev S8x260x256 : Shape := ⟨3, ![8, 260, 256]⟩
abbrev S8x260x2 : Shape := ⟨3, ![8, 260, 2]⟩
abbrev S8x260x258 : Shape := ⟨3, ![8, 260, 258]⟩
abbrev S8x260x260 : Shape := ⟨3, ![8, 260, 260]⟩
abbrev S1x1x256x256 : Shape := ⟨4, ![1, 1, 256, 256]⟩
abbrev S256x256 : Shape := ⟨2, ![256, 256]⟩
abbrev S1x256x256 : Shape := ⟨3, ![1, 256, 256]⟩

abbrev nBuf : Space → Nat
  | .hbm => 4
  | .vmem => 6
  | .smem => 0
  | _ => 0

abbrev bufTy : (tb : Table) → Fin (tcTables nBuf tb) → BufTy
  | .hbm, ⟨0, _⟩ => ⟨S2x5x5x256x256, .f32⟩
  | .hbm, ⟨1, _⟩ => ⟨S2x32x256x256, .f32⟩
  | .hbm, ⟨2, _⟩ => ⟨S2x25x256x256, .f32⟩
  | .hbm, ⟨3, _⟩ => ⟨S2x32x256x256, .f32⟩
  | .local _ .vmem, ⟨0, _⟩ => ⟨S1x8x256x256, .f32⟩
  | .local _ .vmem, ⟨1, _⟩ => ⟨S1x8x256x256, .f32⟩
  | .local _ .vmem, ⟨2, _⟩ => ⟨S1x25x256x256, .f32⟩
  | .local _ .vmem, ⟨3, _⟩ => ⟨S1x25x256x256, .f32⟩
  | .local _ .vmem, ⟨4, _⟩ => ⟨S1x8x256x256, .f32⟩
  | .local _ .vmem, ⟨5, _⟩ => ⟨S1x8x256x256, .f32⟩
  | _, _ => ⟨S2x5x5x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x25x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2x5x5x256x256_S2x25x256x256 : S2x5x5x256x256.ShapeCasts S2x25x256x256
  inb_S1x8x256x256_S1x8x256x256_0_0_0_0 : ∀ a, (![0, 0, 0, 0] : Fin 4 → Nat) a + S1x8x256x256.size a ≤ S1x8x256x256.size a
  h_S1x8x256x256 : 0 < S1x8x256x256.numel
  shapeCasts_S1x8x256x256_S8x256x256 : S1x8x256x256.ShapeCasts S8x256x256
  concatenates_S8x2x256_S8x256x256_S8x258x256_d1 : Shape.Concatenates [S8x2x256, S8x256x256] S8x258x256 1
  concatenates_S8x258x256_S8x2x256_S8x260x256_d1 : Shape.Concatenates [S8x258x256, S8x2x256] S8x260x256 1
  concatenates_S8x260x2_S8x260x256_S8x260x258_d2 : Shape.Concatenates [S8x260x2, S8x260x256] S8x260x258 2
  concatenates_S8x260x258_S8x260x2_S8x260x260_d2 : Shape.Concatenates [S8x260x258, S8x260x2] S8x260x260 2
  slices_S8x260x260_o0_0_0_S8x256x256 : S8x260x260.Slices ![0, 0, 0] S8x256x256
  inb_S1x25x256x256_S1x1x256x256_0_0_0_0 : ∀ a, (![0, 0, 0, 0] : Fin 4 → Nat) a + S1x1x256x256.size a ≤ S1x25x256x256.size a
  h_S1x1x256x256 : 0 < S1x1x256x256.numel
  shapeCasts_S1x1x256x256_S256x256 : S1x1x256x256.ShapeCasts S256x256
  shapeCasts_S256x256_S1x256x256 : S256x256.ShapeCasts S1x256x256
  broadcasts_S1x256x256_S8x256x256 : S1x256x256.Broadcasts S8x256x256
  shapeCasts_S8x256x256_S1x8x256x256 : S8x256x256.ShapeCasts S1x8x256x256
  slices_S8x260x260_o0_0_1_S8x256x256 : S8x260x260.Slices ![0, 0, 1] S8x256x256
  inb_S1x25x256x256_S1x1x256x256_0_1_0_0 : ∀ a, (![0, 1, 0, 0] : Fin 4 → Nat) a + S1x1x256x256.size a ≤ S1x25x256x256.size a
  slices_S8x260x260_o0_0_2_S8x256x256 : S8x260x260.Slices ![0, 0, 2] S8x256x256
  inb_S1x25x256x256_S1x1x256x256_0_2_0_0 : ∀ a, (![0, 2, 0, 0] : Fin 4 → Nat) a + S1x1x256x256.size a ≤ S1x25x256x256.size a
  slices_S8x260x260_o0_0_3_S8x256x256 : S8x260x260.Slices ![0, 0, 3] S8x256x256
  inb_S1x25x256x256_S1x1x256x256_0_3_0_0 : ∀ a, (![0, 3, 0, 0] : Fin 4 → Nat) a + S1x1x256x256.size a ≤ S1x25x256x256.size a
  slices_S8x260x260_o0_0_4_S8x256x256 : S8x260x260.Slices ![0, 0, 4] S8x256x256
  inb_S1x25x256x256_S1x1x256x256_0_4_0_0 : ∀ a, (![0, 4, 0, 0] : Fin 4 → Nat) a + S1x1x256x256.size a ≤ S1x25x256x256.size a
  slices_S8x260x260_o0_1_0_S8x256x256 : S8x260x260.Slices ![0, 1, 0] S8x256x256
  inb_S1x25x256x256_S1x1x256x256_0_5_0_0 : ∀ a, (![0, 5, 0, 0] : Fin 4 → Nat) a + S1x1x256x256.size a ≤ S1x25x256x256.size a
  slices_S8x260x260_o0_1_1_S8x256x256 : S8x260x260.Slices ![0, 1, 1] S8x256x256
  inb_S1x25x256x256_S1x1x256x256_0_6_0_0 : ∀ a, (![0, 6, 0, 0] : Fin 4 → Nat) a + S1x1x256x256.size a ≤ S1x25x256x256.size a
  slices_S8x260x260_o0_1_2_S8x256x256 : S8x260x260.Slices ![0, 1, 2] S8x256x256
  inb_S1x25x256x256_S1x1x256x256_0_7_0_0 : ∀ a, (![0, 7, 0, 0] : Fin 4 → Nat) a + S1x1x256x256.size a ≤ S1x25x256x256.size a
  slices_S8x260x260_o0_1_3_S8x256x256 : S8x260x260.Slices ![0, 1, 3] S8x256x256
  inb_S1x25x256x256_S1x1x256x256_0_8_0_0 : ∀ a, (![0, 8, 0, 0] : Fin 4 → Nat) a + S1x1x256x256.size a ≤ S1x25x256x256.size a
  slices_S8x260x260_o0_1_4_S8x256x256 : S8x260x260.Slices ![0, 1, 4] S8x256x256
  inb_S1x25x256x256_S1x1x256x256_0_9_0_0 : ∀ a, (![0, 9, 0, 0] : Fin 4 → Nat) a + S1x1x256x256.size a ≤ S1x25x256x256.size a
  slices_S8x260x260_o0_2_0_S8x256x256 : S8x260x260.Slices ![0, 2, 0] S8x256x256
  inb_S1x25x256x256_S1x1x256x256_0_10_0_0 : ∀ a, (![0, 10, 0, 0] : Fin 4 → Nat) a + S1x1x256x256.size a ≤ S1x25x256x256.size a
  slices_S8x260x260_o0_2_1_S8x256x256 : S8x260x260.Slices ![0, 2, 1] S8x256x256
  inb_S1x25x256x256_S1x1x256x256_0_11_0_0 : ∀ a, (![0, 11, 0, 0] : Fin 4 → Nat) a + S1x1x256x256.size a ≤ S1x25x256x256.size a
  slices_S8x260x260_o0_2_2_S8x256x256 : S8x260x260.Slices ![0, 2, 2] S8x256x256
  inb_S1x25x256x256_S1x1x256x256_0_12_0_0 : ∀ a, (![0, 12, 0, 0] : Fin 4 → Nat) a + S1x1x256x256.size a ≤ S1x25x256x256.size a
  slices_S8x260x260_o0_2_3_S8x256x256 : S8x260x260.Slices ![0, 2, 3] S8x256x256
  inb_S1x25x256x256_S1x1x256x256_0_13_0_0 : ∀ a, (![0, 13, 0, 0] : Fin 4 → Nat) a + S1x1x256x256.size a ≤ S1x25x256x256.size a
  slices_S8x260x260_o0_2_4_S8x256x256 : S8x260x260.Slices ![0, 2, 4] S8x256x256
  inb_S1x25x256x256_S1x1x256x256_0_14_0_0 : ∀ a, (![0, 14, 0, 0] : Fin 4 → Nat) a + S1x1x256x256.size a ≤ S1x25x256x256.size a
  slices_S8x260x260_o0_3_0_S8x256x256 : S8x260x260.Slices ![0, 3, 0] S8x256x256
  inb_S1x25x256x256_S1x1x256x256_0_15_0_0 : ∀ a, (![0, 15, 0, 0] : Fin 4 → Nat) a + S1x1x256x256.size a ≤ S1x25x256x256.size a
  slices_S8x260x260_o0_3_1_S8x256x256 : S8x260x260.Slices ![0, 3, 1] S8x256x256
  inb_S1x25x256x256_S1x1x256x256_0_16_0_0 : ∀ a, (![0, 16, 0, 0] : Fin 4 → Nat) a + S1x1x256x256.size a ≤ S1x25x256x256.size a
  slices_S8x260x260_o0_3_2_S8x256x256 : S8x260x260.Slices ![0, 3, 2] S8x256x256
  inb_S1x25x256x256_S1x1x256x256_0_17_0_0 : ∀ a, (![0, 17, 0, 0] : Fin 4 → Nat) a + S1x1x256x256.size a ≤ S1x25x256x256.size a
  slices_S8x260x260_o0_3_3_S8x256x256 : S8x260x260.Slices ![0, 3, 3] S8x256x256
  inb_S1x25x256x256_S1x1x256x256_0_18_0_0 : ∀ a, (![0, 18, 0, 0] : Fin 4 → Nat) a + S1x1x256x256.size a ≤ S1x25x256x256.size a
  slices_S8x260x260_o0_3_4_S8x256x256 : S8x260x260.Slices ![0, 3, 4] S8x256x256
  inb_S1x25x256x256_S1x1x256x256_0_19_0_0 : ∀ a, (![0, 19, 0, 0] : Fin 4 → Nat) a + S1x1x256x256.size a ≤ S1x25x256x256.size a
  slices_S8x260x260_o0_4_0_S8x256x256 : S8x260x260.Slices ![0, 4, 0] S8x256x256
  inb_S1x25x256x256_S1x1x256x256_0_20_0_0 : ∀ a, (![0, 20, 0, 0] : Fin 4 → Nat) a + S1x1x256x256.size a ≤ S1x25x256x256.size a
  slices_S8x260x260_o0_4_1_S8x256x256 : S8x260x260.Slices ![0, 4, 1] S8x256x256
  inb_S1x25x256x256_S1x1x256x256_0_21_0_0 : ∀ a, (![0, 21, 0, 0] : Fin 4 → Nat) a + S1x1x256x256.size a ≤ S1x25x256x256.size a
  slices_S8x260x260_o0_4_2_S8x256x256 : S8x260x260.Slices ![0, 4, 2] S8x256x256
  inb_S1x25x256x256_S1x1x256x256_0_22_0_0 : ∀ a, (![0, 22, 0, 0] : Fin 4 → Nat) a + S1x1x256x256.size a ≤ S1x25x256x256.size a
  slices_S8x260x260_o0_4_3_S8x256x256 : S8x260x260.Slices ![0, 4, 3] S8x256x256
  inb_S1x25x256x256_S1x1x256x256_0_23_0_0 : ∀ a, (![0, 23, 0, 0] : Fin 4 → Nat) a + S1x1x256x256.size a ≤ S1x25x256x256.size a
  slices_S8x260x260_o0_4_4_S8x256x256 : S8x260x260.Slices ![0, 4, 4] S8x256x256
  inb_S1x25x256x256_S1x1x256x256_0_24_0_0 : ∀ a, (![0, 24, 0, 0] : Fin 4 → Nat) a + S1x1x256x256.size a ≤ S1x25x256x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x256.size a ≤ S2x32x256x256.size a
  hwx0_0 : ∀ i : grid0.Coords, EltTy.bits .f32 = 32 ∨ (Rect.block (s := S2x32x256x256) S1x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x25x256x256.size a ≤ S2x25x256x256.size a
  hwx0_1 : ∀ i : grid0.Coords, EltTy.bits .f32 = 32 ∨ (Rect.block (s := S2x25x256x256) S1x25x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256x256.size a ≤ S2x32x256x256.size a
  hwx0_2 : ∀ i : grid0.Coords, EltTy.bits .f32 = 32 ∨ (Rect.block (s := S2x32x256x256) S1x8x256x256.size (cc0_transform_2 i) (hinb0_2 i)).WholeWords (EltTy.packing .f32)

variable [Facts₀]

abbrev win0_0 : Pipeline.Window sig grid0 :=
  Pipeline.Window.ofSpec (Memref.whole main_arg1) S1x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x25x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x5x5x256x256 : Shape := ⟨5, ![2, 5, 5, 256, 256]⟩
abbrev S2x32x256x256 : Shape := ⟨4, ![2, 32, 256, 256]⟩
abbrev S_ : Shape := ⟨0, ![]⟩
abbrev S2x32x260x260 : Shape := ⟨4, ![2, 32, 260, 260]⟩
abbrev S2x1x1x256x256 : Shape := ⟨5, ![2, 1, 1, 256, 256]⟩
abbrev S2x256x256 : Shape := ⟨3, ![2, 256, 256]⟩
abbrev S2x1x256x256 : Shape := ⟨4, ![2, 1, 256, 256]⟩

abbrev nBuf : Space → Nat
  | .hbm => 182
  | .vmem => 0
  | .smem => 0
  | _ => 0

abbrev hbmTy0_0 (i : Nat) : BufTy := match i % 128 with
  | 0 => ⟨S2x5x5x256x256, .f32⟩
  | 1 => ⟨S2x32x256x256, .f32⟩
  | 2 => ⟨S_, .i32⟩
  | 3 => ⟨S_, .f32⟩
  | 4 => ⟨S2x32x260x260, .f32⟩
  | 5 => ⟨S_, .f32⟩
  | 6 => ⟨S2x32x256x256, .f32⟩
  | 7 => ⟨S2x32x256x256, .f32⟩
  | 8 => ⟨S2x1x1x256x256, .f32⟩
  | 9 => ⟨S2x256x256, .f32⟩
  | 10 => ⟨S2x1x256x256, .f32⟩
  | 11 => ⟨S2x32x256x256, .f32⟩
  | 12 => ⟨S2x32x256x256, .f32⟩
  | 13 => ⟨S2x32x256x256, .f32⟩
  | 14 => ⟨S2x32x256x256, .f32⟩
  | 15 => ⟨S2x1x1x256x256, .f32⟩
  | 16 => ⟨S2x256x256, .f32⟩
  | 17 => ⟨S2x1x256x256, .f32⟩
  | 18 => ⟨S2x32x256x256, .f32⟩
  | 19 => ⟨S2x32x256x256, .f32⟩
  | 20 => ⟨S2x32x256x256, .f32⟩
  | 21 => ⟨S2x32x256x256, .f32⟩
  | 22 => ⟨S2x1x1x256x256, .f32⟩
  | 23 => ⟨S2x256x256, .f32⟩
  | 24 => ⟨S2x1x256x256, .f32⟩
  | 25 => ⟨S2x32x256x256, .f32⟩
  | 26 => ⟨S2x32x256x256, .f32⟩
  | 27 => ⟨S2x32x256x256, .f32⟩
  | 28 => ⟨S2x32x256x256, .f32⟩
  | 29 => ⟨S2x1x1x256x256, .f32⟩
  | 30 => ⟨S2x256x256, .f32⟩
  | 31 => ⟨S2x1x256x256, .f32⟩
  | 32 => ⟨S2x32x256x256, .f32⟩
  | 33 => ⟨S2x32x256x256, .f32⟩
  | 34 => ⟨S2x32x256x256, .f32⟩
  | 35 => ⟨S2x32x256x256, .f32⟩
  | 36 => ⟨S2x1x1x256x256, .f32⟩
  | 37 => ⟨S2x256x256, .f32⟩
  | 38 => ⟨S2x1x256x256, .f32⟩
  | 39 => ⟨S2x32x256x256, .f32⟩
  | 40 => ⟨S2x32x256x256, .f32⟩
  | 41 => ⟨S2x32x256x256, .f32⟩
  | 42 => ⟨S2x32x256x256, .f32⟩
  | 43 => ⟨S2x1x1x256x256, .f32⟩
  | 44 => ⟨S2x256x256, .f32⟩
  | 45 => ⟨S2x1x256x256, .f32⟩
  | 46 => ⟨S2x32x256x256, .f32⟩
  | 47 => ⟨S2x32x256x256, .f32⟩
  | 48 => ⟨S2x32x256x256, .f32⟩
  | 49 => ⟨S2x32x256x256, .f32⟩
  | 50 => ⟨S2x1x1x256x256, .f32⟩
  | 51 => ⟨S2x256x256, .f32⟩
  | 52 => ⟨S2x1x256x256, .f32⟩
  | 53 => ⟨S2x32x256x256, .f32⟩
  | 54 => ⟨S2x32x256x256, .f32⟩
  | 55 => ⟨S2x32x256x256, .f32⟩
  | 56 => ⟨S2x32x256x256, .f32⟩
  | 57 => ⟨S2x1x1x256x256, .f32⟩
  | 58 => ⟨S2x256x256, .f32⟩
  | 59 => ⟨S2x1x256x256, .f32⟩
  | 60 => ⟨S2x32x256x256, .f32⟩
  | 61 => ⟨S2x32x256x256, .f32⟩
  | 62 => ⟨S2x32x256x256, .f32⟩
  | 63 => ⟨S2x32x256x256, .f32⟩
  | 64 => ⟨S2x1x1x256x256, .f32⟩
  | 65 => ⟨S2x256x256, .f32⟩
  | 66 => ⟨S2x1x256x256, .f32⟩
  | 67 => ⟨S2x32x256x256, .f32⟩
  | 68 => ⟨S2x32x256x256, .f32⟩
  | 69 => ⟨S2x32x256x256, .f32⟩
  | 70 => ⟨S2x32x256x256, .f32⟩
  | 71 => ⟨S2x1x1x256x256, .f32⟩
  | 72 => ⟨S2x256x256, .f32⟩
  | 73 => ⟨S2x1x256x256, .f32⟩
  | 74 => ⟨S2x32x256x256, .f32⟩
  | 75 => ⟨S2x32x256x256, .f32⟩
  | 76 => ⟨S2x32x256x256, .f32⟩
  | 77 => ⟨S2x32x256x256, .f32⟩
  | 78 => ⟨S2x1x1x256x256, .f32⟩
  | 79 => ⟨S2x256x256, .f32⟩
  | 80 => ⟨S2x1x256x256, .f32⟩
  | 81 => ⟨S2x32x256x256, .f32⟩
  | 82 => ⟨S2x32x256x256, .f32⟩
  | 83 => ⟨S2x32x256x256, .f32⟩
  | 84 => ⟨S2x32x256x256, .f32⟩
  | 85 => ⟨S2x1x1x256x256, .f32⟩
  | 86 => ⟨S2x256x256, .f32⟩
  | 87 => ⟨S2x1x256x256, .f32⟩
  | 88 => ⟨S2x32x256x256, .f32⟩
  | 89 => ⟨S2x32x256x256, .f32⟩
  | 90 => ⟨S2x32x256x256, .f32⟩
  | 91 => ⟨S2x32x256x256, .f32⟩
  | 92 => ⟨S2x1x1x256x256, .f32⟩
  | 93 => ⟨S2x256x256, .f32⟩
  | 94 => ⟨S2x1x256x256, .f32⟩
  | 95 => ⟨S2x32x256x256, .f32⟩
  | 96 => ⟨S2x32x256x256, .f32⟩
  | 97 => ⟨S2x32x256x256, .f32⟩
  | 98 => ⟨S2x32x256x256, .f32⟩
  | 99 => ⟨S2x1x1x256x256, .f32⟩
  | 100 => ⟨S2x256x256, .f32⟩
  | 101 => ⟨S2x1x256x256, .f32⟩
  | 102 => ⟨S2x32x256x256, .f32⟩
  | 103 => ⟨S2x32x256x256, .f32⟩
  | 104 => ⟨S2x32x256x256, .f32⟩
  | 105 => ⟨S2x32x256x256, .f32⟩
  | 106 => ⟨S2x1x1x256x256, .f32⟩
  | 107 => ⟨S2x256x256, .f32⟩
  | 108 => ⟨S2x1x256x256, .f32⟩
  | 109 => ⟨S2x32x256x256, .f32⟩
  | 110 => ⟨S2x32x256x256, .f32⟩
  | 111 => ⟨S2x32x256x256, .f32⟩
  | 112 => ⟨S2x32x256x256, .f32⟩
  | 113 => ⟨S2x1x1x256x256, .f32⟩
  | 114 => ⟨S2x256x256, .f32⟩
  | 115 => ⟨S2x1x256x256, .f32⟩
  | 116 => ⟨S2x32x256x256, .f32⟩
  | 117 => ⟨S2x32x256x256, .f32⟩
  | 118 => ⟨S2x32x256x256, .f32⟩
  | 119 => ⟨S2x32x256x256, .f32⟩
  | 120 => ⟨S2x1x1x256x256, .f32⟩
  | 121 => ⟨S2x256x256, .f32⟩
  | 122 => ⟨S2x1x256x256, .f32⟩
  | 123 => ⟨S2x32x256x256, .f32⟩
  | 124 => ⟨S2x32x256x256, .f32⟩
  | 125 => ⟨S2x32x256x256, .f32⟩
  | 126 => ⟨S2x32x256x256, .f32⟩
  | 127 => ⟨S2x1x1x256x256, .f32⟩
  | _ => ⟨S2x5x5x256x256, .f32⟩

abbrev hbmTy0_1 (i : Nat) : BufTy := match i % 128 with
  | 0 => ⟨S2x256x256, .f32⟩
  | 1 => ⟨S2x1x256x256, .f32⟩
  | 2 => ⟨S2x32x256x256, .f32⟩
  | 3 => ⟨S2x32x256x256, .f32⟩
  | 4 => ⟨S2x32x256x256, .f32⟩
  | 5 => ⟨S2x32x256x256, .f32⟩
  | 6 => ⟨S2x1x1x256x256, .f32⟩
  | 7 => ⟨S2x256x256, .f32⟩
  | 8 => ⟨S2x1x256x256, .f32⟩
  | 9 => ⟨S2x32x256x256, .f32⟩
  | 10 => ⟨S2x32x256x256, .f32⟩
  | 11 => ⟨S2x32x256x256, .f32⟩
  | 12 => ⟨S2x32x256x256, .f32⟩
  | 13 => ⟨S2x1x1x256x256, .f32⟩
  | 14 => ⟨S2x256x256, .f32⟩
  | 15 => ⟨S2x1x256x256, .f32⟩
  | 16 => ⟨S2x32x256x256, .f32⟩
  | 17 => ⟨S2x32x256x256, .f32⟩
  | 18 => ⟨S2x32x256x256, .f32⟩
  | 19 => ⟨S2x32x256x256, .f32⟩
  | 20 => ⟨S2x1x1x256x256, .f32⟩
  | 21 => ⟨S2x256x256, .f32⟩
  | 22 => ⟨S2x1x256x256, .f32⟩
  | 23 => ⟨S2x32x256x256, .f32⟩
  | 24 => ⟨S2x32x256x256, .f32⟩
  | 25 => ⟨S2x32x256x256, .f32⟩
  | 26 => ⟨S2x32x256x256, .f32⟩
  | 27 => ⟨S2x1x1x256x256, .f32⟩
  | 28 => ⟨S2x256x256, .f32⟩
  | 29 => ⟨S2x1x256x256, .f32⟩
  | 30 => ⟨S2x32x256x256, .f32⟩
  | 31 => ⟨S2x32x256x256, .f32⟩
  | 32 => ⟨S2x32x256x256, .f32⟩
  | 33 => ⟨S2x32x256x256, .f32⟩
  | 34 => ⟨S2x1x1x256x256, .f32⟩
  | 35 => ⟨S2x256x256, .f32⟩
  | 36 => ⟨S2x1x256x256, .f32⟩
  | 37 => ⟨S2x32x256x256, .f32⟩
  | 38 => ⟨S2x32x256x256, .f32⟩
  | 39 => ⟨S2x32x256x256, .f32⟩
  | 40 => ⟨S2x32x256x256, .f32⟩
  | 41 => ⟨S2x1x1x256x256, .f32⟩
  | 42 => ⟨S2x256x256, .f32⟩
  | 43 => ⟨S2x1x256x256, .f32⟩
  | 44 => ⟨S2x32x256x256, .f32⟩
  | 45 => ⟨S2x32x256x256, .f32⟩
  | 46 => ⟨S2x32x256x256, .f32⟩
  | 47 => ⟨S2x32x256x256, .f32⟩
  | 48 => ⟨S2x1x1x256x256, .f32⟩
  | 49 => ⟨S2x256x256, .f32⟩
  | 50 => ⟨S2x1x256x256, .f32⟩
  | 51 => ⟨S2x32x256x256, .f32⟩
  | 52 => ⟨S2x32x256x256, .f32⟩
  | 53 => ⟨S2x32x256x256, .f32⟩
  | _ => ⟨S2x5x5x256x256, .f32⟩

abbrev hbmTy (i : Nat) : BufTy := match i / 128 with
  | 0 => hbmTy0_0 i
  | 1 => hbmTy0_1 i
  | _ => ⟨S2x5x5x256x256, .f32⟩

abbrev bufTy : (tb : Table) → Fin (tcTables nBuf tb) → BufTy
  | .hbm, ⟨i, _⟩ => hbmTy i
  | _, _ => ⟨S2x5x5x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩

abbrev nD : Nat := 1
abbrev τ : Topo := Topo.v7x

variable {F : FTy → Type} [FloatOps F]

class Facts₀ : Prop where
  pads_S2x32x256x256_S2x32x260x260_000_000_220_220 : S2x32x256x256.Pads (![0, 0, 2, 2] : Fin 4 → Nat) ![0, 0, 2, 2] ![0, 0, 0, 0] S2x32x260x260
  h_S_ : 0 < S_.numel
  bcast_S_S2x32x256x256 : S_.BroadcastsInDim S2x32x256x256 (![] : Fin 0 → Fin S2x32x256x256.rank)
  slices_S2x32x260x260_S2x32x256x256_0_0_0_0 : S2x32x260x260.Slices ![0, 0, 0, 0] S2x32x256x256
  slices_S2x5x5x256x256_S2x1x1x256x256_0_0_0_0_0 : S2x5x5x256x256.Slices ![0, 0, 0, 0, 0] S2x1x1x256x256
  shapeCasts_S2x1x1x256x256_S2x256x256 : S2x1x1x256x256.ShapeCasts S2x256x256
  bcast_S2x256x256_S2x1x256x256_0_2_3 : S2x256x256.BroadcastsInDim S2x1x256x256 (![0, 2, 3] : Fin 3 → Fin S2x1x256x256.rank)
  bcast_S2x1x256x256_S2x32x256x256_0_1_2_3 : S2x1x256x256.BroadcastsInDim S2x32x256x256 (![0, 1, 2, 3] : Fin 4 → Fin S2x32x256x256.rank)
  slices_S2x32x260x260_S2x32x256x256_0_0_0_1 : S2x32x260x260.Slices ![0, 0, 0, 1] S2x32x256x256
  slices_S2x5x5x256x256_S2x1x1x256x256_0_0_1_0_0 : S2x5x5x256x256.Slices ![0, 0, 1, 0, 0] S2x1x1x256x256
  slices_S2x32x260x260_S2x32x256x256_0_0_0_2 : S2x32x260x260.Slices ![0, 0, 0, 2] S2x32x256x256
  slices_S2x5x5x256x256_S2x1x1x256x256_0_0_2_0_0 : S2x5x5x256x256.Slices ![0, 0, 2, 0, 0] S2x1x1x256x256
  slices_S2x32x260x260_S2x32x256x256_0_0_0_3 : S2x32x260x260.Slices ![0, 0, 0, 3] S2x32x256x256
  slices_S2x5x5x256x256_S2x1x1x256x256_0_0_3_0_0 : S2x5x5x256x256.Slices ![0, 0, 3, 0, 0] S2x1x1x256x256
  slices_S2x32x260x260_S2x32x256x256_0_0_0_4 : S2x32x260x260.Slices ![0, 0, 0, 4] S2x32x256x256
  slices_S2x5x5x256x256_S2x1x1x256x256_0_0_4_0_0 : S2x5x5x256x256.Slices ![0, 0, 4, 0, 0] S2x1x1x256x256
  slices_S2x32x260x260_S2x32x256x256_0_0_1_0 : S2x32x260x260.Slices ![0, 0, 1, 0] S2x32x256x256
  slices_S2x5x5x256x256_S2x1x1x256x256_0_1_0_0_0 : S2x5x5x256x256.Slices ![0, 1, 0, 0, 0] S2x1x1x256x256
  slices_S2x32x260x260_S2x32x256x256_0_0_1_1 : S2x32x260x260.Slices ![0, 0, 1, 1] S2x32x256x256
  slices_S2x5x5x256x256_S2x1x1x256x256_0_1_1_0_0 : S2x5x5x256x256.Slices ![0, 1, 1, 0, 0] S2x1x1x256x256
  slices_S2x32x260x260_S2x32x256x256_0_0_1_2 : S2x32x260x260.Slices ![0, 0, 1, 2] S2x32x256x256
  slices_S2x5x5x256x256_S2x1x1x256x256_0_1_2_0_0 : S2x5x5x256x256.Slices ![0, 1, 2, 0, 0] S2x1x1x256x256
  slices_S2x32x260x260_S2x32x256x256_0_0_1_3 : S2x32x260x260.Slices ![0, 0, 1, 3] S2x32x256x256
  slices_S2x5x5x256x256_S2x1x1x256x256_0_1_3_0_0 : S2x5x5x256x256.Slices ![0, 1, 3, 0, 0] S2x1x1x256x256
  slices_S2x32x260x260_S2x32x256x256_0_0_1_4 : S2x32x260x260.Slices ![0, 0, 1, 4] S2x32x256x256
  slices_S2x5x5x256x256_S2x1x1x256x256_0_1_4_0_0 : S2x5x5x256x256.Slices ![0, 1, 4, 0, 0] S2x1x1x256x256
  slices_S2x32x260x260_S2x32x256x256_0_0_2_0 : S2x32x260x260.Slices ![0, 0, 2, 0] S2x32x256x256
  slices_S2x5x5x256x256_S2x1x1x256x256_0_2_0_0_0 : S2x5x5x256x256.Slices ![0, 2, 0, 0, 0] S2x1x1x256x256
  slices_S2x32x260x260_S2x32x256x256_0_0_2_1 : S2x32x260x260.Slices ![0, 0, 2, 1] S2x32x256x256
  slices_S2x5x5x256x256_S2x1x1x256x256_0_2_1_0_0 : S2x5x5x256x256.Slices ![0, 2, 1, 0, 0] S2x1x1x256x256
  slices_S2x32x260x260_S2x32x256x256_0_0_2_2 : S2x32x260x260.Slices ![0, 0, 2, 2] S2x32x256x256
  slices_S2x5x5x256x256_S2x1x1x256x256_0_2_2_0_0 : S2x5x5x256x256.Slices ![0, 2, 2, 0, 0] S2x1x1x256x256
  slices_S2x32x260x260_S2x32x256x256_0_0_2_3 : S2x32x260x260.Slices ![0, 0, 2, 3] S2x32x256x256
  slices_S2x5x5x256x256_S2x1x1x256x256_0_2_3_0_0 : S2x5x5x256x256.Slices ![0, 2, 3, 0, 0] S2x1x1x256x256
  slices_S2x32x260x260_S2x32x256x256_0_0_2_4 : S2x32x260x260.Slices ![0, 0, 2, 4] S2x32x256x256
  slices_S2x5x5x256x256_S2x1x1x256x256_0_2_4_0_0 : S2x5x5x256x256.Slices ![0, 2, 4, 0, 0] S2x1x1x256x256
  slices_S2x32x260x260_S2x32x256x256_0_0_3_0 : S2x32x260x260.Slices ![0, 0, 3, 0] S2x32x256x256
  slices_S2x5x5x256x256_S2x1x1x256x256_0_3_0_0_0 : S2x5x5x256x256.Slices ![0, 3, 0, 0, 0] S2x1x1x256x256
  slices_S2x32x260x260_S2x32x256x256_0_0_3_1 : S2x32x260x260.Slices ![0, 0, 3, 1] S2x32x256x256
  slices_S2x5x5x256x256_S2x1x1x256x256_0_3_1_0_0 : S2x5x5x256x256.Slices ![0, 3, 1, 0, 0] S2x1x1x256x256
  slices_S2x32x260x260_S2x32x256x256_0_0_3_2 : S2x32x260x260.Slices ![0, 0, 3, 2] S2x32x256x256
  slices_S2x5x5x256x256_S2x1x1x256x256_0_3_2_0_0 : S2x5x5x256x256.Slices ![0, 3, 2, 0, 0] S2x1x1x256x256
  slices_S2x32x260x260_S2x32x256x256_0_0_3_3 : S2x32x260x260.Slices ![0, 0, 3, 3] S2x32x256x256
  slices_S2x5x5x256x256_S2x1x1x256x256_0_3_3_0_0 : S2x5x5x256x256.Slices ![0, 3, 3, 0, 0] S2x1x1x256x256
  slices_S2x32x260x260_S2x32x256x256_0_0_3_4 : S2x32x260x260.Slices ![0, 0, 3, 4] S2x32x256x256
  slices_S2x5x5x256x256_S2x1x1x256x256_0_3_4_0_0 : S2x5x5x256x256.Slices ![0, 3, 4, 0, 0] S2x1x1x256x256
  slices_S2x32x260x260_S2x32x256x256_0_0_4_0 : S2x32x260x260.Slices ![0, 0, 4, 0] S2x32x256x256
  slices_S2x5x5x256x256_S2x1x1x256x256_0_4_0_0_0 : S2x5x5x256x256.Slices ![0, 4, 0, 0, 0] S2x1x1x256x256
  slices_S2x32x260x260_S2x32x256x256_0_0_4_1 : S2x32x260x260.Slices ![0, 0, 4, 1] S2x32x256x256
  slices_S2x5x5x256x256_S2x1x1x256x256_0_4_1_0_0 : S2x5x5x256x256.Slices ![0, 4, 1, 0, 0] S2x1x1x256x256
  slices_S2x32x260x260_S2x32x256x256_0_0_4_2 : S2x32x260x260.Slices ![0, 0, 4, 2] S2x32x256x256
  slices_S2x5x5x256x256_S2x1x1x256x256_0_4_2_0_0 : S2x5x5x256x256.Slices ![0, 4, 2, 0, 0] S2x1x1x256x256
  slices_S2x32x260x260_S2x32x256x256_0_0_4_3 : S2x32x260x260.Slices ![0, 0, 4, 3] S2x32x256x256
  slices_S2x5x5x256x256_S2x1x1x256x256_0_4_3_0_0 : S2x5x5x256x256.Slices ![0, 4, 3, 0, 0] S2x1x1x256x256
  slices_S2x32x260x260_S2x32x256x256_0_0_4_4 : S2x32x260x260.Slices ![0, 0, 4, 4] S2x32x256x256
  slices_S2x5x5x256x256_S2x1x1x256x256_0_4_4_0_0 : S2x5x5x256x256.Slices ![0, 4, 4, 0, 0] S2x1x1x256x256

variable [Facts₀]

class Facts : Prop extends Facts₀ where

variable [Facts]
-- ==== Proof.Spec.lean ====
/-
  The specification both programs meet: a spatially varying 5x5 filter.

  For a feature map X of shape [2,32,256,256] and per-pixel filters Kn of shape [2,5,5,256,256],
      out[b,ch,y,x] = sum over the 25 taps (i,j) of  Xpad[b,ch,y+i,x+j] * Kn[b,i,j,y,x],
  where Xpad is X with two rows and two columns of zeros added on every side (so that the tap
  (2,2) is the pixel itself), and the 25 terms are added in row-major order of the taps, from the
  left.  Both programs add the terms in that order; the only difference is that one starts the
  accumulation from a zero array and the other from the first term, and 0 + t = t.
-/
import Idealize.ShloMosaic.PureOps.Ideal
import Idealize.ShloMosaic.Lib.ValueIdx

noncomputable section

namespace Cert.Spec

open Idealize.ShloMosaic Idealize.ShloMosaic.ValueIdx

/-- A 256x256 plane, given by its entries, with two rows and two columns of zeros added on every
    side, read at row `r` and column `c` of the 260x260 result. -/
def padv (f : Fin 256 → Fin 256 → EReal) (r c : ℕ) : EReal :=
  if h : (2 ≤ r ∧ r < 258) ∧ (2 ≤ c ∧ c < 258) then f ⟨r - 2, by omega⟩ ⟨c - 2, by omega⟩ else 0

/-- Twenty-five terms indexed by the taps `(i, j)`, added in row-major order from the left. -/
def sum25 (t : Fin 5 → Fin 5 → EReal) : EReal :=
  t 0 0 + t 0 1 + t 0 2 + t 0 3 + t 0 4
    + t 1 0 + t 1 1 + t 1 2 + t 1 3 + t 1 4
    + t 2 0 + t 2 1 + t 2 2 + t 2 3 + t 2 4
    + t 3 0 + t 3 1 + t 3 2 + t 3 3 + t 3 4
    + t 4 0 + t 4 1 + t 4 2 + t 4 3 + t 4 4

/-- The filtered feature map, index by index. -/
def filtered (Kn : (⟨5, ![2, 5, 5, 256, 256]⟩ : Shape).Idx → EReal) (X : (⟨4, ![2, 32, 256, 256]⟩ : Shape).Idx → EReal) :
    (⟨4, ![2, 32, 256, 256]⟩ : Shape).Idx → EReal := fun idx =>
  sum25 fun i j => padv (fun r c => X (ix4 (idx 0) (idx 1) r c)) ((idx 2).val + i.val) ((idx 3).val + j.val)
    * Kn (ix5 (idx 0) i j (idx 2) (idx 3))

/-- The filtered map at explicit coordinates. -/
theorem filtered_apply (Kn : (⟨5, ![2, 5, 5, 256, 256]⟩ : Shape).Idx → EReal) (X : (⟨4, ![2, 32, 256, 256]⟩ : Shape).Idx → EReal)
    (b : Fin 2) (ch : Fin 32) (y x : Fin 256) :
    filtered Kn X (ix4 b ch y x)
      = sum25 fun i j => padv (fun r c => X (ix4 b ch r c)) (y.val + i.val) (x.val + j.val) * Kn (ix5 b i j y x) := rfl

/-- Two families of taps that agree term by term have the same sum. -/
theorem sum25_congr {t t' : Fin 5 → Fin 5 → EReal} (h : ∀ i j, t i j = t' i j) : sum25 t = sum25 t' := by
  have : t = t' := funext fun i => funext fun j => h i j
  rw [this]

/-- Padding reads the same entries of two planes that agree. -/
theorem padv_congr {f f' : Fin 256 → Fin 256 → EReal} (h : ∀ r c, f r c = f' r c) (r c : ℕ) : padv f r c = padv f' r c := by
  have : f = f' := funext fun r => funext fun c => h r c
  rw [this]

end Cert.Spec

end
-- ==== Proof.BlockTap.lean ====
/-
  One tap of the kernel's body on a block of eight channels, read at an index.

  The body pads its [8,256,256] block of the feature map with zeros by four concatenations (two rows
  above, two below, two columns left, two right), and then for each tap (i, j) multiplies the slice
  of the padded block at offset (i, j) by plane 5i+j of the block of filters, laid over the eight
  channels.  Read at (ch, y, x) that product is  padded[ch, y+i, x+j] * plane[y, x].
-/
import Idealize.ShloMosaic.PureOps.Ideal
import Idealize.ShloMosaic.Lib.ValueIdx
import Idealize.ShloMosaic.Lib.ValueLayout
import Idealize.ShloMosaic.Lib.Pipeline.Value
import proofs.«125306_j47708496724546_2_alg».proof.Proof.Spec

noncomputable section

namespace Cert.BlockTap

open Idealize.ShloMosaic Idealize.ShloMosaic.ValueIdx Cert.Spec

abbrev B8 : Shape := ⟨4, ![1, 8, 256, 256]⟩
abbrev V8 : Shape := ⟨3, ![8, 256, 256]⟩
abbrev Zr : Shape := ⟨3, ![8, 2, 256]⟩
abbrev M1 : Shape := ⟨3, ![8, 258, 256]⟩
abbrev M2 : Shape := ⟨3, ![8, 260, 256]⟩
abbrev Zc : Shape := ⟨3, ![8, 260, 2]⟩
abbrev M3 : Shape := ⟨3, ![8, 260, 258]⟩
abbrev P8 : Shape := ⟨3, ![8, 260, 260]⟩
abbrev PL : Shape := ⟨4, ![1, 1, 256, 256]⟩
abbrev Q2 : Shape := ⟨2, ![256, 256]⟩
abbrev Q3 : Shape := ⟨3, ![1, 256, 256]⟩

/-- Two rows of `z` above and two below an `[8,256,256]` array: row `r` of the `[8,260,256]` result is row
    `r-2` of the array for `2 ≤ r < 258` and `z` otherwise. -/
theorem rows_apply (A : V8.Idx → EReal) (z : EReal) (h1 : Shape.Concatenates [Zr, V8] M1 1) (h2 : Shape.Concatenates [M1, Zr] M2 1)
    (ch : Fin 8) (r : Fin 260) (c : Fin 256) :
    concatenate M2 1 [⟨M1, concatenate M1 1 [⟨Zr, broadcast Zr z⟩, ⟨V8, A⟩] h1⟩, ⟨Zr, broadcast Zr z⟩] h2 (ix3 ch r c)
      = if hr : 2 ≤ r.val ∧ r.val < 258 then A (ix3 ch (⟨r.val - 2, by omega⟩ : Fin 256) c) else z := by
  by_cases hhi : r.val < 258
  · -- the row lies in the first piece, itself a concatenation
    refine (concatenate_pair_apply_left (1 : Fin M2.rank) _ _ h2 (ix3 ch r c) rfl (ix3 ch (⟨r.val, hhi⟩ : Fin 258) c)
      fun b => match b with | ⟨0, _⟩ => rfl | ⟨1, _⟩ => rfl | ⟨2, _⟩ => rfl).trans ?_
    by_cases hlo : 2 ≤ r.val
    · rw [dif_pos ⟨hlo, hhi⟩]
      refine concatenate_pair_apply_right (1 : Fin M1.rank) _ _ h1 (ix3 ch (⟨r.val, hhi⟩ : Fin 258) c) rfl rfl
        (ix3 ch (⟨r.val - 2, by omega⟩ : Fin 256) c)
        (fun b hb => match b, hb with
          | ⟨0, _⟩, _ => rfl
          | ⟨1, _⟩, hb => (hb (Fin.ext rfl)).elim
          | ⟨2, _⟩, _ => rfl) ?_
      show r.val - 2 + 2 = r.val
      omega
    · rw [dif_neg fun h => hlo h.1]
      exact concatenate_pair_apply_left (1 : Fin M1.rank) _ _ h1 (ix3 ch (⟨r.val, hhi⟩ : Fin 258) c) rfl
        (ix3 ch (⟨r.val, by omega⟩ : Fin 2) c) fun b => match b with | ⟨0, _⟩ => rfl | ⟨1, _⟩ => rfl | ⟨2, _⟩ => rfl
  · rw [dif_neg fun h => hhi h.2]
    refine concatenate_pair_apply_right (1 : Fin M2.rank) _ _ h2 (ix3 ch r c) rfl rfl
      (ix3 ch (⟨r.val - 258, by omega⟩ : Fin 2) c)
      (fun b hb => match b, hb with
        | ⟨0, _⟩, _ => rfl
        | ⟨1, _⟩, hb => (hb (Fin.ext rfl)).elim
        | ⟨2, _⟩, _ => rfl) ?_
    show r.val - 258 + 258 = r.val
    omega

/-- Two columns of `z` left and two right of an `[8,260,256]` array: column `c` of the `[8,260,260]` result is
    column `c-2` of the array for `2 ≤ c < 258` and `z` otherwise. -/
theorem cols_apply (A : M2.Idx → EReal) (z : EReal) (h3 : Shape.Concatenates [Zc, M2] M3 2) (h4 : Shape.Concatenates [M3, Zc] P8 2)
    (ch : Fin 8) (r : Fin 260) (c : Fin 260) :
    concatenate P8 2 [⟨M3, concatenate M3 2 [⟨Zc, broadcast Zc z⟩, ⟨M2, A⟩] h3⟩, ⟨Zc, broadcast Zc z⟩] h4 (ix3 ch r c)
      = if hc : 2 ≤ c.val ∧ c.val < 258 then A (ix3 ch r (⟨c.val - 2, by omega⟩ : Fin 256)) else z := by
  by_cases hhi : c.val < 258
  · refine (concatenate_pair_apply_left (2 : Fin P8.rank) _ _ h4 (ix3 ch r c) rfl (ix3 ch r (⟨c.val, hhi⟩ : Fin 258))
      fun b => match b with | ⟨0, _⟩ => rfl | ⟨1, _⟩ => rfl | ⟨2, _⟩ => rfl).trans ?_
    by_cases hlo : 2 ≤ c.val
    · rw [dif_pos ⟨hlo, hhi⟩]
      refine concatenate_pair_apply_right (2 : Fin M3.rank) _ _ h3 (ix3 ch r (⟨c.val, hhi⟩ : Fin 258)) rfl rfl
        (ix3 ch r (⟨c.val - 2, by omega⟩ : Fin 256))
        (fun b hb => match b, hb with
          | ⟨0, _⟩, _ => rfl
          | ⟨1, _⟩, _ => rfl
          | ⟨2, _⟩, hb => (hb (Fin.ext rfl)).elim) ?_
      show c.val - 2 + 2 = c.val
      omega
    · rw [dif_neg fun h => hlo h.1]
      exact concatenate_pair_apply_left (2 : Fin M3.rank) _ _ h3 (ix3 ch r (⟨c.val, hhi⟩ : Fin 258)) rfl
        (ix3 ch r (⟨c.val, by omega⟩ : Fin 2)) fun b => match b with | ⟨0, _⟩ => rfl | ⟨1, _⟩ => rfl | ⟨2, _⟩ => rfl
  · rw [dif_neg fun h => hhi h.2]
    refine concatenate_pair_apply_right (2 : Fin P8.rank) _ _ h4 (ix3 ch r c) rfl rfl
      (ix3 ch r (⟨c.val - 258, by omega⟩ : Fin 2))
      (fun b hb => match b, hb with
        | ⟨0, _⟩, _ => rfl
        | ⟨1, _⟩, _ => rfl
        | ⟨2, _⟩, hb => (hb (Fin.ext rfl)).elim) ?_
    show c.val - 258 + 258 = c.val
    omega

/-- The padded block: the block of features with a border of two entries `z` all round, `z` being zero, as `padv`. -/
theorem padded_apply (v0 : B8.Idx → EReal) (z : EReal) (hz : z = 0) (hc : B8.ShapeCasts V8)
    (h1 : Shape.Concatenates [Zr, V8] M1 1) (h2 : Shape.Concatenates [M1, Zr] M2 1)
    (h3 : Shape.Concatenates [Zc, M2] M3 2) (h4 : Shape.Concatenates [M3, Zc] P8 2)
    (ch : Fin 8) (r c : Fin 260) :
    concatenate P8 2 [⟨M3, concatenate M3 2 [⟨Zc, broadcast Zc z⟩,
        ⟨M2, concatenate M2 1 [⟨M1, concatenate M1 1 [⟨Zr, broadcast Zr z⟩, ⟨V8, shapeCast V8 v0 hc⟩] h1⟩,
          ⟨Zr, broadcast Zr z⟩] h2⟩] h3⟩, ⟨Zc, broadcast Zc z⟩] h4 (ix3 ch r c)
      = padv (fun r' c' => v0 (ix4 (0 : Fin 1) ch r' c')) r.val c.val := by
  subst hz
  rw [cols_apply]
  unfold padv
  by_cases hcc : 2 ≤ c.val ∧ c.val < 258
  · rw [dif_pos hcc, rows_apply]
    by_cases hrr : 2 ≤ r.val ∧ r.val < 258
    · rw [dif_pos hrr, dif_pos ⟨hrr, hcc⟩, shapeCast_1abc_abc_apply]
    · rw [dif_neg hrr, dif_neg fun h => hrr h.1]
  · rw [dif_neg hcc, dif_neg fun h => hcc h.2]

/-- The slice of the padded block at offset `(oi, oj)` reads, at `(ch, y, x)`, the padded block at `(ch, y+oi, x+oj)`. -/
theorem slice_apply (P : P8.Idx → EReal) (oi oj : ℕ) (hs : P8.Slices ![0, oi, oj] V8) (ch : Fin 8) (y x : Fin 256) :
    extractStridedSlice V8 ![0, oi, oj] P hs (ix3 ch y x)
      = P (ix3 ch (⟨y.val + oi, by have := hs.2 (1 : Fin 3); have : oi + 256 ≤ 260 := this; omega⟩ : Fin 260)
          (⟨x.val + oj, by have := hs.2 (2 : Fin 3); have : oj + 256 ≤ 260 := this; omega⟩ : Fin 260)) :=
  extractStridedSlice_apply _ P hs _ _ fun a => match a with
    | ⟨0, _⟩ => by show ch.val = 0 + ch.val; omega
    | ⟨1, _⟩ => by show y.val + oi = oi + y.val; omega
    | ⟨2, _⟩ => by show x.val + oj = oj + x.val; omega

/-- A `[1,1,256,256]` plane reshaped to `[1,256,256]` and laid over the eight channels reads, at `(ch, y, x)`, the plane at `(y, x)`. -/
theorem plane_apply (pl : PL.Idx → EReal) (h1 : PL.ShapeCasts Q2) (h2 : Q2.ShapeCasts Q3) (h3 : Q3.Broadcasts V8)
    (ch : Fin 8) (y x : Fin 256) :
    broadcastTo V8 (shapeCast Q3 (shapeCast Q2 pl h1) h2) h3 (ix3 ch y x) = pl (ix4 (0 : Fin 1) (0 : Fin 1) y x) := by
  refine (broadcastTo_apply _ h3 (ix3 ch y x) (ix3 (0 : Fin 1) y x) fun a => match a with
    | ⟨0, _⟩ => rfl | ⟨1, _⟩ => rfl | ⟨2, _⟩ => rfl).trans ?_
  rw [shapeCast_ab_1ab_apply]
  refine shapeCast_apply _ h1 (ix2 y x) (ix4 (0 : Fin 1) (0 : Fin 1) y x) ?_
  rw [Shape.rowMajor_val_four, Shape.rowMajor_val_two]
  show ((0 * 1 + 0) * 256 + y.val) * 256 + x.val = y.val * 256 + x.val
  omega

/-- A block stored as `[1,8,256,256]` reads the `[8,256,256]` value it was cast from. -/
theorem store_cast_apply (v : V8.Idx → EReal) (h : V8.ShapeCasts B8) (u : Fin 1) (ch : Fin 8) (y x : Fin 256) :
    shapeCast B8 v h (ix4 u ch y x) = v (ix3 ch y x) := shapeCast_abc_1abc_apply v h u ch y x

/-- A block loaded as `[1,8,256,256]` and cast to `[8,256,256]` reads the loaded block. -/
theorem load_cast_apply (v : B8.Idx → EReal) (h : B8.ShapeCasts V8) (ch : Fin 8) (y x : Fin 256) :
    shapeCast V8 v h (ix3 ch y x) = v (ix4 (0 : Fin 1) ch y x) := shapeCast_1abc_abc_apply v h ch y x

end Cert.BlockTap

end
-- ==== Proof.Payloads.lean ====
/- Each named value of the kernel's body, read at an index.  Most are one whole tap — the slice of the padded block at the
   tap's offset, times the tap's plane of filters, plus the block read back from the output buffer; a few taps are cut in
   two or three (the slice, the plane, the product, the sum as separate values).  Each lemma unfolds the value and reads its
   operations one by one with the lemmas of Proof/BlockTap.lean. -/
import proofs.«125306_j47708496724546_2_alg».proof.Proof.Gen.KernelIdeal.Skeleton
import proofs.«125306_j47708496724546_2_alg».proof.Proof.BlockTap

noncomputable section

namespace Cert.Payloads

open Idealize.ShloMosaic Idealize.ShloMosaic.ValueIdx Cert.Spec Cert.BlockTap
open Cert.KernelIdeal Cert.KernelIdeal.Gen

/-- Row (or column) `y` moved by the tap's offset, inside the 260 padded rows (columns). -/
abbrev up (y : Fin 256) (o : Fin 5) : Fin 260 := ⟨y.val + o.val, by omega⟩

theorem pay4_apply (v0 : Vec Ideal S1x8x256x256 .f32) (pl : Vec Ideal S1x1x256x256 .f32) (u : Fin 1) (ch : Fin 8) (y x : Fin 256) :
    k0_pay4 (F := Ideal) v0 pl (ix4 u ch y x)
      = k0_pay3 (F := Ideal) v0 (ix3 ch (up y 0) (up x 0)) * pl (ix4 (0 : Fin 1) (0 : Fin 1) y x) := by
  unfold k0_pay4
  rw [store_cast_apply, mulf_apply, slice_apply, plane_apply] <;> rfl

theorem pay5_apply (v0 : Vec Ideal S1x8x256x256 .f32) (pl : Vec Ideal S1x1x256x256 .f32) (prev : Vec Ideal S1x8x256x256 .f32) (u : Fin 1) (ch : Fin 8) (y x : Fin 256) :
    k0_pay5 (F := Ideal) v0 pl prev (ix4 u ch y x)
      = prev (ix4 (0 : Fin 1) ch y x) + k0_pay3 (F := Ideal) v0 (ix3 ch (up y 0) (up x 1)) * pl (ix4 (0 : Fin 1) (0 : Fin 1) y x) := by
  unfold k0_pay5
  rw [store_cast_apply, addf_apply, mulf_apply, load_cast_apply, slice_apply, plane_apply] <;> rfl

theorem pay6_apply (v10 : FVec Ideal S8x260x260 .f32) (pl : Vec Ideal S1x1x256x256 .f32) (prev : Vec Ideal S1x8x256x256 .f32) (u : Fin 1) (ch : Fin 8) (y x : Fin 256) :
    k0_pay6 (F := Ideal) v10 pl prev (ix4 u ch y x)
      = prev (ix4 (0 : Fin 1) ch y x) + v10 (ix3 ch (up y 0) (up x 2)) * pl (ix4 (0 : Fin 1) (0 : Fin 1) y x) := by
  unfold k0_pay6
  rw [store_cast_apply, addf_apply, mulf_apply, load_cast_apply, slice_apply, plane_apply] <;> rfl

theorem pay7_apply (v10 : FVec Ideal S8x260x260 .f32) (pl : Vec Ideal S1x1x256x256 .f32) (prev : Vec Ideal S1x8x256x256 .f32) (u : Fin 1) (ch : Fin 8) (y x : Fin 256) :
    k0_pay7 (F := Ideal) v10 pl prev (ix4 u ch y x)
      = prev (ix4 (0 : Fin 1) ch y x) + v10 (ix3 ch (up y 0) (up x 3)) * pl (ix4 (0 : Fin 1) (0 : Fin 1) y x) := by
  unfold k0_pay7
  rw [store_cast_apply, addf_apply, mulf_apply, load_cast_apply, slice_apply, plane_apply] <;> rfl

theorem pay8_apply (v10 : FVec Ideal S8x260x260 .f32) (ch : Fin 8) (y x : Fin 256) :
    k0_pay8 (F := Ideal) v10 (ix3 ch y x)
      = v10 (ix3 ch (up y 0) (up x 4)) := by
  unfold k0_pay8
  rw [slice_apply] <;> rfl

theorem pay9_apply (pl : Vec Ideal S1x1x256x256 .f32) (ch : Fin 8) (y x : Fin 256) :
    k0_pay9 (F := Ideal) pl (ix3 ch y x)
      = pl (ix4 (0 : Fin 1) (0 : Fin 1) y x) := by
  unfold k0_pay9
  rw [plane_apply] <;> rfl

theorem pay10_apply (a : FVec Ideal S8x256x256 .f32) (b : FVec Ideal S8x256x256 .f32) (prev : Vec Ideal S1x8x256x256 .f32) (u : Fin 1) (ch : Fin 8) (y x : Fin 256) :
    k0_pay10 (F := Ideal) a b prev (ix4 u ch y x)
      = prev (ix4 (0 : Fin 1) ch y x) + a (ix3 ch y x) * b (ix3 ch y x) := by
  unfold k0_pay10
  rw [store_cast_apply, addf_apply, mulf_apply, load_cast_apply] <;> rfl

theorem pay11_apply (v10 : FVec Ideal S8x260x260 .f32) (pl : Vec Ideal S1x1x256x256 .f32) (prev : Vec Ideal S1x8x256x256 .f32) (u : Fin 1) (ch : Fin 8) (y x : Fin 256) :
    k0_pay11 (F := Ideal) v10 pl prev (ix4 u ch y x)
      = prev (ix4 (0 : Fin 1) ch y x) + v10 (ix3 ch (up y 1) (up x 0)) * pl (ix4 (0 : Fin 1) (0 : Fin 1) y x) := by
  unfold k0_pay11
  rw [store_cast_apply, addf_apply, mulf_apply, load_cast_apply, slice_apply, plane_apply] <;> rfl

theorem pay12_apply (v10 : FVec Ideal S8x260x260 .f32) (pl : Vec Ideal S1x1x256x256 .f32) (prev : Vec Ideal S1x8x256x256 .f32) (ch : Fin 8) (y x : Fin 256) :
    k0_pay12 (F := Ideal) v10 pl prev (ix3 ch y x)
      = prev (ix4 (0 : Fin 1) ch y x) + v10 (ix3 ch (up y 1) (up x 1)) * pl (ix4 (0 : Fin 1) (0 : Fin 1) y x) := by
  unfold k0_pay12
  rw [addf_apply, mulf_apply, load_cast_apply, slice_apply, plane_apply] <;> rfl

theorem pay13_apply (a : FVec Ideal S8x256x256 .f32) (u : Fin 1) (ch : Fin 8) (y x : Fin 256) :
    k0_pay13 (F := Ideal) a (ix4 u ch y x)
      = a (ix3 ch y x) := by
  unfold k0_pay13
  rw [store_cast_apply] <;> rfl

theorem pay14_apply (v10 : FVec Ideal S8x260x260 .f32) (pl : Vec Ideal S1x1x256x256 .f32) (prev : Vec Ideal S1x8x256x256 .f32) (u : Fin 1) (ch : Fin 8) (y x : Fin 256) :
    k0_pay14 (F := Ideal) v10 pl prev (ix4 u ch y x)
      = prev (ix4 (0 : Fin 1) ch y x) + v10 (ix3 ch (up y 1) (up x 2)) * pl (ix4 (0 : Fin 1) (0 : Fin 1) y x) := by
  unfold k0_pay14
  rw [store_cast_apply, addf_apply, mulf_apply, load_cast_apply, slice_apply, plane_apply] <;> rfl

theorem pay15_apply (v10 : FVec Ideal S8x260x260 .f32) (pl : Vec Ideal S1x1x256x256 .f32) (prev : Vec Ideal S1x8x256x256 .f32) (u : Fin 1) (ch : Fin 8) (y x : Fin 256) :
    k0_pay15 (F := Ideal) v10 pl prev (ix4 u ch y x)
      = prev (ix4 (0 : Fin 1) ch y x) + v10 (ix3 ch (up y 1) (up x 3)) * pl (ix4 (0 : Fin 1) (0 : Fin 1) y x) := by
  unfold k0_pay15
  rw [store_cast_apply, addf_apply, mulf_apply, load_cast_apply, slice_apply, plane_apply] <;> rfl

theorem pay16_apply (v10 : FVec Ideal S8x260x260 .f32) (ch : Fin 8) (y x : Fin 256) :
    k0_pay16 (F := Ideal) v10 (ix3 ch y x)
      = v10 (ix3 ch (up y 1) (up x 4)) := by
  unfold k0_pay16
  rw [slice_apply] <;> rfl

theorem pay17_apply (a : FVec Ideal S8x256x256 .f32) (pl : Vec Ideal S1x1x256x256 .f32) (prev : Vec Ideal S1x8x256x256 .f32) (u : Fin 1) (ch : Fin 8) (y x : Fin 256) :
    k0_pay17 (F := Ideal) a pl prev (ix4 u ch y x)
      = prev (ix4 (0 : Fin 1) ch y x) + a (ix3 ch y x) * pl (ix4 (0 : Fin 1) (0 : Fin 1) y x) := by
  unfold k0_pay17
  rw [store_cast_apply, addf_apply, mulf_apply, load_cast_apply, plane_apply] <;> rfl

theorem pay18_apply (v10 : FVec Ideal S8x260x260 .f32) (pl : Vec Ideal S1x1x256x256 .f32) (prev : Vec Ideal S1x8x256x256 .f32) (u : Fin 1) (ch : Fin 8) (y x : Fin 256) :
    k0_pay18 (F := Ideal) v10 pl prev (ix4 u ch y x)
      = prev (ix4 (0 : Fin 1) ch y x) + v10 (ix3 ch (up y 2) (up x 0)) * pl (ix4 (0 : Fin 1) (0 : Fin 1) y x) := by
  unfold k0_pay18
  rw [store_cast_apply, addf_apply, mulf_apply, load_cast_apply, slice_apply, plane_apply] <;> rfl

theorem pay19_apply (v10 : FVec Ideal S8x260x260 .f32) (pl : Vec Ideal S1x1x256x256 .f32) (ch : Fin 8) (y x : Fin 256) :
    k0_pay19 (F := Ideal) v10 pl (ix3 ch y x)
      = v10 (ix3 ch (up y 2) (up x 1)) * pl (ix4 (0 : Fin 1) (0 : Fin 1) y x) := by
  unfold k0_pay19
  rw [mulf_apply, slice_apply, plane_apply] <;> rfl

theorem pay20_apply (a : FVec Ideal S8x256x256 .f32) (prev : Vec Ideal S1x8x256x256 .f32) (u : Fin 1) (ch : Fin 8) (y x : Fin 256) :
    k0_pay20 (F := Ideal) a prev (ix4 u ch y x)
      = prev (ix4 (0 : Fin 1) ch y x) + a (ix3 ch y x) := by
  unfold k0_pay20
  rw [store_cast_apply, addf_apply, load_cast_apply] <;> rfl

theorem pay21_apply (v10 : FVec Ideal S8x260x260 .f32) (pl : Vec Ideal S1x1x256x256 .f32) (prev : Vec Ideal S1x8x256x256 .f32) (u : Fin 1) (ch : Fin 8) (y x : Fin 256) :
    k0_pay21 (F := Ideal) v10 pl prev (ix4 u ch y x)
      = prev (ix4 (0 : Fin 1) ch y x) + v10 (ix3 ch (up y 2) (up x 2)) * pl (ix4 (0 : Fin 1) (0 : Fin 1) y x) := by
  unfold k0_pay21
  rw [store_cast_apply, addf_apply, mulf_apply, load_cast_apply, slice_apply, plane_apply] <;> rfl

theorem pay22_apply (v10 : FVec Ideal S8x260x260 .f32) (pl : Vec Ideal S1x1x256x256 .f32) (prev : Vec Ideal S1x8x256x256 .f32) (u : Fin 1) (ch : Fin 8) (y x : Fin 256) :
    k0_pay22 (F := Ideal) v10 pl prev (ix4 u ch y x)
      = prev (ix4 (0 : Fin 1) ch y x) + v10 (ix3 ch (up y 2) (up x 3)) * pl (ix4 (0 : Fin 1) (0 : Fin 1) y x) := by
  unfold k0_pay22
  rw [store_cast_apply, addf_apply, mulf_apply, load_cast_apply, slice_apply, plane_apply] <;> rfl

theorem pay23_apply (v10 : FVec Ideal S8x260x260 .f32) (pl : Vec Ideal S1x1x256x256 .f32) (prev : Vec Ideal S1x8x256x256 .f32) (u : Fin 1) (ch : Fin 8) (y x : Fin 256) :
    k0_pay23 (F := Ideal) v10 pl prev (ix4 u ch y x)
      = prev (ix4 (0 : Fin 1) ch y x) + v10 (ix3 ch (up y 2) (up x 4)) * pl (ix4 (0 : Fin 1) (0 : Fin 1) y x) := by
  unfold k0_pay23
  rw [store_cast_apply, addf_apply, mulf_apply, load_cast_apply, slice_apply, plane_apply] <;> rfl

theorem pay24_apply (v10 : FVec Ideal S8x260x260 .f32) (pl : Vec Ideal S1x1x256x256 .f32) (prev : Vec Ideal S1x8x256x256 .f32) (u : Fin 1) (ch : Fin 8) (y x : Fin 256) :
    k0_pay24 (F := Ideal) v10 pl prev (ix4 u ch y x)
      = prev (ix4 (0 : Fin 1) ch y x) + v10 (ix3 ch (up y 3) (up x 0)) * pl (ix4 (0 : Fin 1) (0 : Fin 1) y x) := by
  unfold k0_pay24
  rw [store_cast_apply, addf_apply, mulf_apply, load_cast_apply, slice_apply, plane_apply] <;> rfl

theorem pay25_apply (v10 : FVec Ideal S8x260x260 .f32) (ch : Fin 8) (y x : Fin 256) :
    k0_pay25 (F := Ideal) v10 (ix3 ch y x)
      = v10 (ix3 ch (up y 3) (up x 1)) := by
  unfold k0_pay25
  rw [slice_apply] <;> rfl

theorem pay26_apply (pl : Vec Ideal S1x1x256x256 .f32) (ch : Fin 8) (y x : Fin 256) :
    k0_pay26 (F := Ideal) pl (ix3 ch y x)
      = pl (ix4 (0 : Fin 1) (0 : Fin 1) y x) := by
  unfold k0_pay26
  rw [plane_apply] <;> rfl

theorem pay27_apply (a : FVec Ideal S8x256x256 .f32) (b : FVec Ideal S8x256x256 .f32) (prev : Vec Ideal S1x8x256x256 .f32) (u : Fin 1) (ch : Fin 8) (y x : Fin 256) :
    k0_pay27 (F := Ideal) a b prev (ix4 u ch y x)
      = prev (ix4 (0 : Fin 1) ch y x) + a (ix3 ch y x) * b (ix3 ch y x) := by
  unfold k0_pay27
  rw [store_cast_apply, addf_apply, mulf_apply, load_cast_apply] <;> rfl

theorem pay28_apply (v10 : FVec Ideal S8x260x260 .f32) (pl : Vec Ideal S1x1x256x256 .f32) (prev : Vec Ideal S1x8x256x256 .f32) (u : Fin 1) (ch : Fin 8) (y x : Fin 256) :
    k0_pay28 (F := Ideal) v10 pl prev (ix4 u ch y x)
      = prev (ix4 (0 : Fin 1) ch y x) + v10 (ix3 ch (up y 3) (up x 2)) * pl (ix4 (0 : Fin 1) (0 : Fin 1) y x) := by
  unfold k0_pay28
  rw [store_cast_apply, addf_apply, mulf_apply, load_cast_apply, slice_apply, plane_apply] <;> rfl

theorem pay29_apply (v10 : FVec Ideal S8x260x260 .f32) (pl : Vec Ideal S1x1x256x256 .f32) (prev : Vec Ideal S1x8x256x256 .f32) (ch : Fin 8) (y x : Fin 256) :
    k0_pay29 (F := Ideal) v10 pl prev (ix3 ch y x)
      = prev (ix4 (0 : Fin 1) ch y x) + v10 (ix3 ch (up y 3) (up x 3)) * pl (ix4 (0 : Fin 1) (0 : Fin 1) y x) := by
  unfold k0_pay29
  rw [addf_apply, mulf_apply, load_cast_apply, slice_apply, plane_apply] <;> rfl

theorem pay30_apply (a : FVec Ideal S8x256x256 .f32) (u : Fin 1) (ch : Fin 8) (y x : Fin 256) :
    k0_pay30 (F := Ideal) a (ix4 u ch y x)
      = a (ix3 ch y x) := by
  unfold k0_pay30
  rw [store_cast_apply] <;> rfl

theorem pay31_apply (v10 : FVec Ideal S8x260x260 .f32) (pl : Vec Ideal S1x1x256x256 .f32) (prev : Vec Ideal S1x8x256x256 .f32) (u : Fin 1) (ch : Fin 8) (y x : Fin 256) :
    k0_pay31 (F := Ideal) v10 pl prev (ix4 u ch y x)
      = prev (ix4 (0 : Fin 1) ch y x) + v10 (ix3 ch (up y 3) (up x 4)) * pl (ix4 (0 : Fin 1) (0 : Fin 1) y x) := by
  unfold k0_pay31
  rw [store_cast_apply, addf_apply, mulf_apply, load_cast_apply, slice_apply, plane_apply] <;> rfl

theorem pay32_apply (v10 : FVec Ideal S8x260x260 .f32) (pl : Vec Ideal S1x1x256x256 .f32) (prev : Vec Ideal S1x8x256x256 .f32) (u : Fin 1) (ch : Fin 8) (y x : Fin 256) :
    k0_pay32 (F := Ideal) v10 pl prev (ix4 u ch y x)
      = prev (ix4 (0 : Fin 1) ch y x) + v10 (ix3 ch (up y 4) (up x 0)) * pl (ix4 (0 : Fin 1) (0 : Fin 1) y x) := by
  unfold k0_pay32
  rw [store_cast_apply, addf_apply, mulf_apply, load_cast_apply, slice_apply, plane_apply] <;> rfl

theorem pay33_apply (v10 : FVec Ideal S8x260x260 .f32) (ch : Fin 8) (y x : Fin 256) :
    k0_pay33 (F := Ideal) v10 (ix3 ch y x)
      = v10 (ix3 ch (up y 4) (up x 1)) := by
  unfold k0_pay33
  rw [slice_apply] <;> rfl

theorem pay34_apply (a : FVec Ideal S8x256x256 .f32) (pl : Vec Ideal S1x1x256x256 .f32) (prev : Vec Ideal S1x8x256x256 .f32) (u : Fin 1) (ch : Fin 8) (y x : Fin 256) :
    k0_pay34 (F := Ideal) a pl prev (ix4 u ch y x)
      = prev (ix4 (0 : Fin 1) ch y x) + a (ix3 ch y x) * pl (ix4 (0 : Fin 1) (0 : Fin 1) y x) := by
  unfold k0_pay34
  rw [store_cast_apply, addf_apply, mulf_apply, load_cast_apply, plane_apply] <;> rfl

theorem pay35_apply (v10 : FVec Ideal S8x260x260 .f32) (pl : Vec Ideal S1x1x256x256 .f32) (prev : Vec Ideal S1x8x256x256 .f32) (u : Fin 1) (ch : Fin 8) (y x : Fin 256) :
    k0_pay35 (F := Ideal) v10 pl prev (ix4 u ch y x)
      = prev (ix4 (0 : Fin 1) ch y x) + v10 (ix3 ch (up y 4) (up x 2)) * pl (ix4 (0 : Fin 1) (0 : Fin 1) y x) := by
  unfold k0_pay35
  rw [store_cast_apply, addf_apply, mulf_apply, load_cast_apply, slice_apply, plane_apply] <;> rfl

theorem pay36_apply (v10 : FVec Ideal S8x260x260 .f32) (pl : Vec Ideal S1x1x256x256 .f32) (ch : Fin 8) (y x : Fin 256) :
    k0_pay36 (F := Ideal) v10 pl (ix3 ch y x)
      = v10 (ix3 ch (up y 4) (up x 3)) * pl (ix4 (0 : Fin 1) (0 : Fin 1) y x) := by
  unfold k0_pay36
  rw [mulf_apply, slice_apply, plane_apply] <;> rfl

theorem pay1_apply (a : FVec Ideal S8x256x256 .f32) (prev : Vec Ideal S1x8x256x256 .f32) (u : Fin 1) (ch : Fin 8) (y x : Fin 256) :
    k0_pay1 (F := Ideal) a prev (ix4 u ch y x)
      = prev (ix4 (0 : Fin 1) ch y x) + a (ix3 ch y x) := by
  unfold k0_pay1
  rw [store_cast_apply, addf_apply, load_cast_apply] <;> rfl

theorem pay2_apply (v10 : FVec Ideal S8x260x260 .f32) (pl : Vec Ideal S1x1x256x256 .f32) (prev : Vec Ideal S1x8x256x256 .f32) (u : Fin 1) (ch : Fin 8) (y x : Fin 256) :
    k0_pay2 (F := Ideal) v10 pl prev (ix4 u ch y x)
      = prev (ix4 (0 : Fin 1) ch y x) + v10 (ix3 ch (up y 4) (up x 4)) * pl (ix4 (0 : Fin 1) (0 : Fin 1) y x) := by
  unfold k0_pay2
  rw [store_cast_apply, addf_apply, mulf_apply, load_cast_apply, slice_apply, plane_apply] <;> rfl

end Cert.Payloads

end
-- ==== Proof.BlockValue.lean ====
/-
  What the kernel's body leaves in its output block, read at an index.

  The body stores its whole output block 25 times: the first store is the first tap's product, and
  each later store is the block just stored, read back, plus the next tap's product.  A load of the
  whole block after a store of the whole block reads what was stored, so the last store is the sum of
  the 25 products, added in order from the left.
-/
import proofs.«125306_j47708496724546_2_alg».proof.Proof.Gen.KernelIdeal.Frame
import proofs.«125306_j47708496724546_2_alg».proof.Proof.Payloads

set_option maxRecDepth 65536

noncomputable section

namespace Cert.BlockValue

open Idealize.ShloMosaic Idealize.ShloMosaic.TcCoe Idealize.ShloMosaic.Tactic Idealize.ShloMosaic.ValueIdx
open Idealize.SL Idealize.SL.Sem
open Cert.Spec Cert.BlockTap Cert.Payloads Cert.KernelIdeal Cert.KernelIdeal.Gen

/-- The offsets of a load or store of a whole block are all zero. -/
theorem hz4 : (![0, 0, 0, 0] : Fin 4 → Nat) = fun _ => 0 := funext fun a => by fin_cases a <;> rfl

/-- The padding value, the integer zero converted to a float, is zero. -/
theorem pad_zero : Scalar.sitofp (F := Ideal) .f32 (0#32 : BitVec 32) = (0 : EReal) := by
  rw [Ideal.scalar_sitofp_def]
  simp

/-- Where a load of plane `k` of the block of filters reads: entry `(0, 0, y, x)` of the loaded `[1,1,256,256]` vector is entry
    `(0, k, y, x)` of the block. -/
theorem plane_idx (k : ℕ)
    (inb : ∀ a, (![0, k, 0, 0] : Fin 4 → Nat) a + (![1, 1, 256, 256] : Fin 4 → Nat) a ≤ S1x25x256x256.size a) (y x : Fin 256) :
    (Rect.unit (s := S1x25x256x256) ![0, k, 0, 0] ![1, 1, 256, 256] inb).toLoadRect.idx (ix4 (0 : Fin 1) (0 : Fin 1) y x)
      = ix4 (0 : Fin 1) (⟨k, by have h : k + 1 ≤ 25 := inb (1 : Fin 4); omega⟩ : Fin 25) y x := by
  refine funext fun a => Fin.ext ?_
  match a with
  | ⟨0, _⟩ => show 0 + 1 * 0 = 0; rfl
  | ⟨1, _⟩ => show k + 1 * 0 = k; omega
  | ⟨2, _⟩ => show 0 + 1 * y.val = y.val; omega
  | ⟨3, _⟩ => show 0 + 1 * x.val = x.val; omega

/-- The padded block the body builds, read at `(ch, r, c)`: the block of features inside, zero in the border. -/
theorem pay3_apply (v0 : Vec Ideal S1x8x256x256 .f32) (ch : Fin 8) (r c : Fin 260) :
    k0_pay3 (F := Ideal) v0 (ix3 ch r c) = padv (fun r' c' => v0 (ix4 (0 : Fin 1) ch r' c')) r.val c.val := by
  unfold k0_pay3
  exact padded_apply v0 _ pad_zero _ _ _ _ _ ch r c

/-- The plane of filters that tap `(i, j)` uses: number `5i + j` of the 25. -/
abbrev tapIx (i j : Fin 5) : Fin 25 := ⟨5 * i.val + j.val, by omega⟩

/-- THE BODY'S RESULT: on a block `x0` of eight channels of features and the block `x1` of the 25 planes of filters,
    the output block at `(ch, y, x)` is the sum over the taps of the zero-padded features at `(ch, y+i, x+j)`
    times plane `5i+j` at `(y, x)`. -/
theorem block_apply (c : Dev nD) (i : grid0.Coords) (arg2 : Memref sig .tc .vmem S1x8x256x256 .f32) (harg2 : arg2.IsWhole)
    (arg3 : Memref sig .tc .vmem S1x25x256x256 .f32) (harg3 : arg3.IsWhole) (arg4 : Memref sig .tc .vmem S1x8x256x256 .f32) (harg4 : arg4.IsWhole)
    (x0 : Vec Ideal S1x8x256x256 .f32) (x1 : Vec Ideal S1x25x256x256 .f32) (u : Fin 1) (ch : Fin 8) (y x : Fin 256) :
    out0_A_2 (F := Ideal) c i arg2 harg2 arg3 harg3 arg4 harg4 x0 x1 (ix4 u ch y x)
      = sum25 fun i j => padv (fun r' c' => x0 (ix4 (0 : Fin 1) ch r' c')) (y.val + i.val) (x.val + j.val)
          * x1 (ix4 (0 : Fin 1) (tapIx i j) y x) := by
  unfold out0_A_2
  rw [View.read_writes_eq_canon _ _ _ (cover0_A_2 c i arg2 harg2 arg3 harg3 arg4 harg4 x0 x1)]
  unfold kernelRun0_A
  dsimp only
  sl_unfold_words
  -- the last store covers the block; every load of the block reads the store before it; the inputs read as given
  rw [View.canon_cons_unit_zero hz4]
  simp only [View.readCov_cons_toLoadRect, View.readAt_eq_ld, harg2.read_unread, harg3.read_unread,
    View.ld_unit_zero (S := S1x8x256x256) hz4]
  -- the body's arithmetic, one named value after another, then the padded block and the planes of filters
  simp only [pay1_apply, pay2_apply, pay4_apply, pay5_apply, pay6_apply, pay7_apply, pay8_apply, pay9_apply, pay10_apply,
    pay11_apply, pay12_apply, pay13_apply, pay14_apply, pay15_apply, pay16_apply, pay17_apply, pay18_apply, pay19_apply,
    pay20_apply, pay21_apply, pay22_apply, pay23_apply, pay24_apply, pay25_apply, pay26_apply, pay27_apply, pay28_apply,
    pay29_apply, pay30_apply, pay31_apply, pay32_apply, pay33_apply, pay34_apply, pay35_apply, pay36_apply, pay3_apply, View.ld, plane_idx]
  rfl

end Cert.BlockValue

end
-- ==== Proof.KernelValue.lean ====
/-
  The kernel's result array is the filtered map.

  The grid has 2 x 4 points: point (b, cb) works on batch entry b and channels 8cb .. 8cb+7.  Its
  input blocks are those eight channels of the feature map and the 25 planes of batch b's filters
  (the filters reshaped from [2,5,5,256,256] to [2,25,256,256] before the region, so that plane 5i+j
  is tap (i,j)); what it writes back is the filtered map on those eight channels.  The eight blocks
  cover the result array.
-/
import proofs.«125306_j47708496724546_2_alg».proof.Proof.Gen.KernelIdeal.Value
import proofs.«125306_j47708496724546_2_alg».proof.Proof.BlockValue
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelValue

open Cert.Spec Cert.BlockTap Cert.BlockValue Cert.KernelIdeal Cert.KernelIdeal.Gen Cert.KernelIdeal.Value

/-- Plane `5i+j` of the filters reshaped to 25 planes is tap `(i, j)` of the filters. -/
theorem planes_apply (Kn : (⟨5, ![2, 5, 5, 256, 256]⟩ : Shape).Idx → EReal)
    (h : (⟨5, ![2, 5, 5, 256, 256]⟩ : Shape).ShapeCasts ⟨4, ![2, 25, 256, 256]⟩) (b : Fin 2) (i j : Fin 5) (y x : Fin 256) :
    shapeCast ⟨4, ![2, 25, 256, 256]⟩ Kn h (ix4 b (tapIx i j) y x) = Kn (ix5 b i j y x) :=
  shapeCast_apply Kn h _ _ (by
    rw [Shape.rowMajor_val_five, Shape.rowMajor_val_four]
    show (((b.val * 5 + i.val) * 5 + j.val) * 256 + y.val) * 256 + x.val
      = ((b.val * 25 + (5 * i.val + j.val)) * 256 + y.val) * 256 + x.val
    omega)

/-- The body's result on blocks that are eight channels `8cb ..` of batch entry `b` of the feature map `X`, and the 25
    planes of batch entry `b` of the filters `Kn`, is the filtered map on those channels. -/
theorem block_filtered (Kn : (⟨5, ![2, 5, 5, 256, 256]⟩ : Shape).Idx → EReal) (X : (⟨4, ![2, 32, 256, 256]⟩ : Shape).Idx → EReal)
    (h : (⟨5, ![2, 5, 5, 256, 256]⟩ : Shape).ShapeCasts ⟨4, ![2, 25, 256, 256]⟩)
    (x0 : Vec Ideal S1x8x256x256 .f32) (x1 : Vec Ideal S1x25x256x256 .f32) (b : Fin 2) (cb : Fin 4)
    (h0 : ∀ (ch : Fin 8) (r c : Fin 256),
      x0 (ix4 (0 : Fin 1) ch r c) = X (ix4 b (⟨8 * cb.val + ch.val, by omega⟩ : Fin 32) r c))
    (h1 : ∀ (k : Fin 25) (y x : Fin 256),
      x1 (ix4 (0 : Fin 1) k y x) = shapeCast ⟨4, ![2, 25, 256, 256]⟩ Kn h (ix4 b k y x))
    (c : Dev nD) (i : grid0.Coords) (arg2 : Memref sig .tc .vmem S1x8x256x256 .f32) (harg2 : arg2.IsWhole)
    (arg3 : Memref sig .tc .vmem S1x25x256x256 .f32) (harg3 : arg3.IsWhole) (arg4 : Memref sig .tc .vmem S1x8x256x256 .f32) (harg4 : arg4.IsWhole)
    (u : Fin 1) (ch : Fin 8) (y x : Fin 256) :
    out0_A_2 (F := Ideal) c i arg2 harg2 arg3 harg3 arg4 harg4 x0 x1 (ix4 u ch y x)
      = filtered Kn X (ix4 b (⟨8 * cb.val + ch.val, by omega⟩ : Fin 32) y x) := by
  rw [block_apply, filtered_apply]
  refine sum25_congr fun i j => ?_
  rw [h1, planes_apply]
  refine congrArg (· * Kn (ix5 b i j y x)) (padv_congr (fun r c => h0 ch r c) _ _)

variable (m : (ℓ : Loc nD τ sig) → Buf (Elt Ideal) ℓ) (ρ : Dev nD → PrngReg)

/-- The result: the filtered map of the two argument arrays. -/
abbrev result (c : Dev nD) : Buf (Elt Ideal) ((c : Thread nD τ).loc main_v1) :=
  filtered (m ((c : Thread nD τ).loc main_arg0) : S2x5x5x256x256.Idx → Elt Ideal .f32)
    (m ((c : Thread nD τ).loc main_arg1) : S2x32x256x256.Idx → Elt Ideal .f32)

/-- The three windows' block indices at every grid point: features and result at `(b, cb, 0, 0)`, filters at `(b, 0, 0, 0)`. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (0 : Fin 4) ≤ 1 ∧ win0_2.index t (1 : Fin 4) ≤ 3
    ∧ win0_2.index t (2 : Fin 4) = 0 ∧ win0_2.index t (3 : Fin 4) = 0 :=
  (by decide +kernel : ∀ t : Fin grid0.N, _)

/-- Every pair `(b, cb)` is some grid point's. -/
theorem idx_onto : ∀ (q0 : Fin 2) (q1 : Fin 4), ∃ t : Fin cfg0.N, win0_2.index t = ![q0.val, q1.val, 0, 0] :=
  (by decide +kernel : ∀ (q0 : Fin 2) (q1 : Fin 4), ∃ t : Fin grid0.N, win0_2.index t = ![q0.val, q1.val, 0, 0])

/-- The filters as the region finds them: the argument reshaped to 25 planes by the one host operation before the region. -/
theorem V_filters (c : Dev nD) :
    (V m c main_v0 : S2x25x256x256.Idx → Elt Ideal .f32)
      = shapeCast S2x25x256x256 (m ((c : Thread nD τ).loc main_arg0) : S2x5x5x256x256.Idx → Elt Ideal .f32)
          Facts₀.shapeCasts_S2x5x5x256x256_S2x25x256x256 := by
  dsimp only [V, hostOps0]
  after_results
  rfl

/-- WHAT POINT `t` WRITES BACK is its block of the filtered map. -/
theorem flushed_eq (c : Dev nD) (t : Fin cfg0.N) :
    (dats m 0 c).flushed 2 t = ((cfg0.win 2).blk t).view.read (Elt Ideal) (result m c) := by
  rw [flushed2_A]
  obtain ⟨e0, e1, e2, e3, f0, f1, f2, f3, g0, g1, g2, g3⟩ := idx_facts t
  refine funext fun (j : S1x8x256x256.Idx) => ?_
  obtain ⟨u, ch, y, x, rfl⟩ : ∃ (u : Fin 1) (ch : Fin 8) (y x : Fin 256), j = ix4 u ch y x :=
    ⟨j 0, j 1, j 2, j 3, eq_ix4 j⟩
  show out0_A_2 (F := Ideal) c (grid0.coords t) (ms0_0 t) (hs0_0 t) (ms0_1 t) (hs0_1 t) (ms0_2 t) (hs0_2 t)
      (iblk m c 0 t) (iblk m c 1 t) (ix4 u ch y x)
    = result m c (((cfg0.win 2).blk t).view.emb (ix4 u ch y x))
  -- the block's element (u, ch, y, x) sits at (b, 8cb + ch, y, x) of the array
  have hemb : ((cfg0.win 2).blk t).view.emb (ix4 u ch y x)
      = ix4 (⟨win0_2.index t (0 : Fin 4), by omega⟩ : Fin 2) (⟨8 * (⟨win0_2.index t (1 : Fin 4), by omega⟩ : Fin 4).val + ch.val, by
          show 8 * win0_2.index t (1 : Fin 4) + ch.val < 32; omega⟩ : Fin 32) y x := by
    funext a; apply Fin.ext
    match a with
    | ⟨0, _⟩ => show win0_2.index t (0 : Fin 4) * 1 + 1 * u.val = win0_2.index t (0 : Fin 4); omega
    | ⟨1, _⟩ => show win0_2.index t (1 : Fin 4) * 8 + 1 * ch.val = 8 * win0_2.index t (1 : Fin 4) + ch.val; omega
    | ⟨2, _⟩ => show win0_2.index t (2 : Fin 4) * 256 + 1 * y.val = y.val; omega
    | ⟨3, _⟩ => show win0_2.index t (3 : Fin 4) * 256 + 1 * x.val = x.val; omega
  rw [hemb]
  refine block_filtered _ _ Facts₀.shapeCasts_S2x5x5x256x256_S2x25x256x256 (iblk m c 0 t) (iblk m c 1 t)
    (⟨win0_2.index t (0 : Fin 4), by omega⟩ : Fin 2) (⟨win0_2.index t (1 : Fin 4), by omega⟩ : Fin 4) ?_ ?_
    c _ _ _ _ _ _ _ u ch y x
  · -- the block of features
    intro ch' r c'
    show V m c main_arg1 (((cfg0.win 0).blk t).view.emb (ix4 (0 : Fin 1) ch' r c')) = _
    rw [V_main_arg1]
    refine congrArg (m ((c : Thread nD τ).loc main_arg1) : S2x32x256x256.Idx → Elt Ideal .f32) ?_
    funext a; apply Fin.ext
    match a with
    | ⟨0, _⟩ => show win0_0.index t (0 : Fin 4) * 1 + 1 * 0 = win0_2.index t (0 : Fin 4); omega
    | ⟨1, _⟩ => show win0_0.index t (1 : Fin 4) * 8 + 1 * ch'.val = 8 * win0_2.index t (1 : Fin 4) + ch'.val; omega
    | ⟨2, _⟩ => show win0_0.index t (2 : Fin 4) * 256 + 1 * r.val = r.val; omega
    | ⟨3, _⟩ => show win0_0.index t (3 : Fin 4) * 256 + 1 * c'.val = c'.val; omega
  · -- the block of filters
    intro k y' x'
    show V m c main_v0 (((cfg0.win 1).blk t).view.emb (ix4 (0 : Fin 1) k y' x')) = _
    rw [V_filters]
    refine congrArg (shapeCast S2x25x256x256 (m ((c : Thread nD τ).loc main_arg0) : S2x5x5x256x256.Idx → Elt Ideal .f32) _) ?_
    funext a; apply Fin.ext
    match a with
    | ⟨0, _⟩ => show win0_1.index t (0 : Fin 4) * 1 + 1 * 0 = win0_2.index t (0 : Fin 4); omega
    | ⟨1, _⟩ => show win0_1.index t (1 : Fin 4) * 25 + 1 * k.val = k.val; omega
    | ⟨2, _⟩ => show win0_1.index t (2 : Fin 4) * 256 + 1 * y'.val = y'.val; omega
    | ⟨3, _⟩ => show win0_1.index t (3 : Fin 4) * 256 + 1 * x'.val = x'.val; omega

/-- An index of the result array is in point `t`'s block iff each coordinate is in the block's range on its axis. -/
theorem mem_blk (t : Fin cfg0.N) (i : S2x32x256x256.Idx) :
    i ∈ ((cfg0.win 2).blk t).view.set ↔ ∀ a : Fin 4, win0_2.index t a * S1x8x256x256.size a ≤ (i a).val
      ∧ (i a).val < win0_2.index t a * S1x8x256x256.size a + S1x8x256x256.size a := by
  show i ∈ ((View.whole main_v1).slice (win0_2.rect t)).set ↔ _
  rw [View.set_slice_whole, Rect.mem_set_unit]
  exact Iff.rfl

/-- Every index of the result array is in some point's block: batch entry `b`, channels `8 (ch / 8) ..`. -/
theorem cover (i : S2x32x256x256.Idx) :
    ∃ t : Fin cfg0.N, (cfg0.win 2).flush t = true ∧ i ∈ ((cfg0.win 2).blk t).view.set := by
  have hi0 : (i 0).val < 2 := (i 0).isLt
  have hi1 : (i 1).val < 32 := (i 1).isLt
  have hi2 : (i 2).val < 256 := (i 2).isLt
  have hi3 : (i 3).val < 256 := (i 3).isLt
  obtain ⟨t, ht⟩ := idx_onto ⟨(i 0).val, hi0⟩ ⟨(i 1).val / 8, by omega⟩
  have q0 : win0_2.index t (0 : Fin 4) = (i 0).val := congrFun ht 0
  have q1 : win0_2.index t (1 : Fin 4) = (i 1).val / 8 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- THE ARRAY after the run is the filtered map. -/
theorem final (c : Dev nD) : (dats m 0 c).arrAt 2 cfg0.N = result m c :=
  (dats m 0 c).arrAt_eq_of_cover 2 (result m c) (fun t _ => flushed_eq m c t) cover

/-- The run, read: the result array at the filtered map of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.KernelValue

end
-- ==== Proof.HostTap.lean ====
/-
  One tap of the host program, read at an index.

  The host program pads the feature map once and then, for each tap (i, j), slices the padded map
  at offset (i, j), slices plane (i, j) out of the filters, lays that plane over the 32 channels by a
  reshape and two broadcasts, multiplies, and adds the product to what it has so far.  Read at
  (b, ch, y, x) such a stage is
      prev[b,ch,y,x] + padded[b,ch,y+i,x+j] * Kn[b,i,j,y,x].
-/
import Idealize.ShloMosaic.PureOps.Ideal
import Idealize.ShloMosaic.Lib.ValueIdx
import Idealize.ShloMosaic.Lib.Pipeline.Value
import Idealize.ShloMosaic.Lib.KernelVsHost
import proofs.«125306_j47708496724546_2_alg».proof.Proof.Spec

noncomputable section

namespace Cert.HostTap

open Idealize.ShloMosaic Idealize.ShloMosaic.ValueIdx Cert.Spec

abbrev SX : Shape := ⟨4, ![2, 32, 256, 256]⟩
abbrev SP : Shape := ⟨4, ![2, 32, 260, 260]⟩
abbrev SK : Shape := ⟨5, ![2, 5, 5, 256, 256]⟩
abbrev SK1 : Shape := ⟨5, ![2, 1, 1, 256, 256]⟩
abbrev S3 : Shape := ⟨3, ![2, 256, 256]⟩
abbrev S4 : Shape := ⟨4, ![2, 1, 256, 256]⟩

/-- The slice of the padded map at offset `(i, j)` reads, at `(b, ch, y, x)`, the padded map at `(b, ch, y+i, x+j)`. -/
theorem slice_padded_apply (P : SP.Idx → EReal) (i j : Fin 5) (hs : SP.Slices ![0, 0, i.val, j.val] SX)
    (b : Fin 2) (ch : Fin 32) (y x : Fin 256) :
    extractStridedSlice SX ![0, 0, i.val, j.val] P hs (ix4 b ch y x)
      = P (ix4 b ch (⟨y.val + i.val, by omega⟩ : Fin 260) (⟨x.val + j.val, by omega⟩ : Fin 260)) :=
  extractStridedSlice_apply _ P hs _ _ fun a => match a with
    | ⟨0, _⟩ => by show b.val = 0 + b.val; omega
    | ⟨1, _⟩ => by show ch.val = 0 + ch.val; omega
    | ⟨2, _⟩ => by show y.val + i.val = i.val + y.val; omega
    | ⟨3, _⟩ => by show x.val + j.val = j.val + x.val; omega

/-- Plane `(i, j)` of the filters, reshaped to `[2,256,256]` and laid over the channels, reads at
    `(b, ch, y, x)` the filter entry `(b, i, j, y, x)`: the channel is ignored. -/
theorem plane_apply (Kn : SK.Idx → EReal) (i j : Fin 5) (hk : SK.Slices ![0, i.val, j.val, 0, 0] SK1)
    (hc : SK1.ShapeCasts S3) (hb1 : S3.BroadcastsInDim S4 ![0, 2, 3]) (hb2 : S4.BroadcastsInDim SX ![0, 1, 2, 3])
    (b : Fin 2) (ch : Fin 32) (y x : Fin 256) :
    broadcastInDim SX ![0, 1, 2, 3] hb2 (broadcastInDim S4 ![0, 2, 3] hb1
        (shapeCast S3 (extractStridedSlice SK1 ![0, i.val, j.val, 0, 0] Kn hk) hc)) (ix4 b ch y x)
      = Kn (ix5 b i j y x) := by
  refine (broadcastInDim_apply _ hb2 _ (ix4 b ch y x) (ix4 b (0 : Fin 1) y x) fun a => match a with
    | ⟨0, _⟩ => rfl | ⟨1, _⟩ => rfl | ⟨2, _⟩ => rfl | ⟨3, _⟩ => rfl).trans ?_
  refine (broadcastInDim_apply _ hb1 _ (ix4 b (0 : Fin 1) y x) (ix3 b y x) fun a => match a with
    | ⟨0, _⟩ => rfl | ⟨1, _⟩ => rfl | ⟨2, _⟩ => rfl).trans ?_
  refine (shapeCast_apply _ hc (ix3 b y x) (ix5 b (0 : Fin 1) (0 : Fin 1) y x) ?_).trans ?_
  · rw [Shape.rowMajor_val_five, Shape.rowMajor_val_three]
    show (((b.val * 1 + 0) * 1 + 0) * 256 + y.val) * 256 + x.val = (b.val * 256 + y.val) * 256 + x.val
    omega
  · exact extractStridedSlice_apply _ Kn hk _ _ fun a => match a with
      | ⟨0, _⟩ => by show b.val = 0 + b.val; omega
      | ⟨1, _⟩ => by show i.val = i.val + 0; omega
      | ⟨2, _⟩ => by show j.val = j.val + 0; omega
      | ⟨3, _⟩ => by show y.val = 0 + y.val; omega
      | ⟨4, _⟩ => by show x.val = 0 + x.val; omega

/-- The host `pad` by two on each side of the two spatial axes, with padding value `z`, read at
    `(b, ch, r, c)`: the feature map at `(r-2, c-2)` inside, `z` in the border. -/
theorem pad_apply (X : SX.Idx → EReal) {u : Shape} (v : u.Idx → EReal) (z : EReal)
    (h : SX.Pads ![0, 0, 2, 2] ![0, 0, 2, 2] ![0, 0, 0, 0] SP) (hu : 0 < u.numel) (hv : v (Shape.Idx.first hu) = z)
    (b : Fin 2) (ch : Fin 32) (r c : Fin 260) :
    pad SP ![0, 0, 2, 2] ![0, 0, 2, 2] ![0, 0, 0, 0] X v h hu (ix4 b ch r c)
      = if hin : (2 ≤ r.val ∧ r.val < 258) ∧ (2 ≤ c.val ∧ c.val < 258)
          then X (ix4 b ch (⟨r.val - 2, by omega⟩ : Fin 256) (⟨c.val - 2, by omega⟩ : Fin 256)) else z := by
  by_cases hin : (2 ≤ r.val ∧ r.val < 258) ∧ (2 ≤ c.val ∧ c.val < 258)
  · rw [dif_pos hin]
    exact pad_apply_of_inside _ _ _ X v h hu _ _ fun a => match a with
      | ⟨0, _⟩ => by show b.val = 0 + b.val * (0 + 1); omega
      | ⟨1, _⟩ => by show ch.val = 0 + ch.val * (0 + 1); omega
      | ⟨2, _⟩ => by show r.val = 2 + (r.val - 2) * (0 + 1); omega
      | ⟨3, _⟩ => by show c.val = 2 + (c.val - 2) * (0 + 1); omega
  · rw [dif_neg hin, ← hv]
    by_cases hr : 2 ≤ r.val ∧ r.val < 258
    · refine pad_apply_of_not_inside _ _ _ X v h hu _ (⟨3, by decide⟩ : Fin SX.rank) ?_
      show ¬(2 ≤ c.val ∧ (c.val - 2) % (0 + 1) = 0 ∧ (c.val - 2) / (0 + 1) < 256)
      omega
    · refine pad_apply_of_not_inside _ _ _ X v h hu _ (⟨2, by decide⟩ : Fin SX.rank) ?_
      show ¬(2 ≤ r.val ∧ (r.val - 2) % (0 + 1) = 0 ∧ (r.val - 2) / (0 + 1) < 256)
      omega

/-- One tap's stage of the host program, read at `(b, ch, y, x)`, when the padded map `P` reads
    as the zero-padded feature map `X`. -/
theorem stage_apply (X : SX.Idx → EReal) (P : SP.Idx → EReal) (Kn : SK.Idx → EReal) (prev : SX.Idx → EReal) (i j : Fin 5)
    (hP : ∀ (b : Fin 2) (ch : Fin 32) (r c : Fin 260), P (ix4 b ch r c) = padv (fun r' c' => X (ix4 b ch r' c')) r.val c.val)
    (hs : SP.Slices ![0, 0, i.val, j.val] SX) (hk : SK.Slices ![0, i.val, j.val, 0, 0] SK1)
    (hc : SK1.ShapeCasts S3) (hb1 : S3.BroadcastsInDim S4 ![0, 2, 3]) (hb2 : S4.BroadcastsInDim SX ![0, 1, 2, 3])
    (b : Fin 2) (ch : Fin 32) (y x : Fin 256) :
    addf (F := Ideal) (φ := .f32) prev (mulf (extractStridedSlice SX ![0, 0, i.val, j.val] P hs)
        (broadcastInDim SX ![0, 1, 2, 3] hb2 (broadcastInDim S4 ![0, 2, 3] hb1
          (shapeCast S3 (extractStridedSlice SK1 ![0, i.val, j.val, 0, 0] Kn hk) hc)))) (ix4 b ch y x)
      = prev (ix4 b ch y x)
        + padv (fun r' c' => X (ix4 b ch r' c')) (y.val + i.val) (x.val + j.val) * Kn (ix5 b i j y x) := by
  rw [addf_apply, mulf_apply, slice_padded_apply, plane_apply, hP]

/-! ## The host program's result as one term -/

abbrev S0 : Shape := ⟨0, ![]⟩

theorem slicesP (i j : Fin 5) : SP.Slices ![0, 0, i.val, j.val] SX :=
  ⟨rfl, fun a => match a with
    | ⟨0, _⟩ => by show 0 + 2 ≤ 2; omega
    | ⟨1, _⟩ => by show 0 + 32 ≤ 32; omega
    | ⟨2, _⟩ => by show i.val + 256 ≤ 260; omega
    | ⟨3, _⟩ => by show j.val + 256 ≤ 260; omega⟩

theorem slicesK (i j : Fin 5) : SK.Slices ![0, i.val, j.val, 0, 0] SK1 :=
  ⟨rfl, fun a => match a with
    | ⟨0, _⟩ => by show 0 + 2 ≤ 2; omega
    | ⟨1, _⟩ => by show i.val + 1 ≤ 5; omega
    | ⟨2, _⟩ => by show j.val + 1 ≤ 5; omega
    | ⟨3, _⟩ => by show 0 + 256 ≤ 256; omega
    | ⟨4, _⟩ => by show 0 + 256 ≤ 256; omega⟩

theorem castsK : SK1.ShapeCasts S3 := by decide
theorem bcast1 : S3.BroadcastsInDim S4 ![0, 2, 3] := by decide
theorem bcast2 : S4.BroadcastsInDim SX ![0, 1, 2, 3] := by decide
theorem bcast0 : S0.BroadcastsInDim SX ![] := by decide
theorem padsX : SX.Pads ![0, 0, 2, 2] ![0, 0, 2, 2] ![0, 0, 0, 0] SP := by decide
theorem numel0 : 0 < S0.numel := by decide

/-- One tap's seven operations composed: the stage before, plus the slice of the padded map at the tap's offset times the
    tap's plane of filters laid over the channels. -/
def stage (prev : SX.Idx → EReal) (P : SP.Idx → EReal) (Kn : SK.Idx → EReal) (i j : Fin 5) : SX.Idx → EReal :=
  addf (F := Ideal) (φ := .f32) prev (mulf (extractStridedSlice SX ![0, 0, i.val, j.val] P (slicesP i j))
    (broadcastInDim SX ![0, 1, 2, 3] bcast2 (broadcastInDim S4 ![0, 2, 3] bcast1
      (shapeCast S3 (extractStridedSlice SK1 ![0, i.val, j.val, 0, 0] Kn (slicesK i j)) castsK))))

/-- The padded map: the feature map with two rows and columns of the integer zero, converted, on every side. -/
def padded (X : SX.Idx → EReal) : SP.Idx → EReal :=
  pad SP ![0, 0, 2, 2] ![0, 0, 2, 2] ![0, 0, 0, 0] X (sitofp (F := Ideal) .f32 (constantI S0 32 0#32)) padsX numel0

/-- The array the accumulation starts from: zero everywhere. -/
def zeros : SX.Idx → EReal := broadcastInDim SX ![] bcast0 (constant (F := Ideal) S0 .f32 0x00000000#32)

/-- The host program's result: the 25 stages, taps in row-major order, from the zero array. -/
def refTerm (Kn : SK.Idx → EReal) (X : SX.Idx → EReal) : SX.Idx → EReal :=
  let P := padded X
  stage (stage (stage (stage (stage (stage (stage (stage (stage (stage (stage (stage (stage (stage (stage (stage (stage
    (stage (stage (stage (stage (stage (stage (stage (stage zeros P Kn 0 0) P Kn 0 1) P Kn 0 2) P Kn 0 3) P Kn 0 4)
    P Kn 1 0) P Kn 1 1) P Kn 1 2) P Kn 1 3) P Kn 1 4) P Kn 2 0) P Kn 2 1) P Kn 2 2) P Kn 2 3) P Kn 2 4)
    P Kn 3 0) P Kn 3 1) P Kn 3 2) P Kn 3 3) P Kn 3 4) P Kn 4 0) P Kn 4 1) P Kn 4 2) P Kn 4 3) P Kn 4 4

theorem padded_apply (X : SX.Idx → EReal) (b : Fin 2) (ch : Fin 32) (r c : Fin 260) :
    padded X (ix4 b ch r c) = padv (fun r' c' => X (ix4 b ch r' c')) r.val c.val := by
  unfold padded
  rw [pad_apply X _ 0 padsX numel0 (by
    show (((0#32 : BitVec 32).toInt : ℝ) : EReal) = 0
    simp)]
  rfl

theorem zeros_apply (idx : SX.Idx) : zeros idx = 0 := by
  unfold zeros
  rw [broadcastInDim_apply _ bcast0 _ idx (fun a => a.elim0) (fun a => a.elim0)]
  show Ideal.ofBits .f32 0x00000000#32 = 0
  simp [Ideal.ofBits, Ideal.ieee]

theorem stage_eq (X : SX.Idx → EReal) (Kn : SK.Idx → EReal) (prev : SX.Idx → EReal) (i j : Fin 5)
    (b : Fin 2) (ch : Fin 32) (y x : Fin 256) :
    stage prev (padded X) Kn i j (ix4 b ch y x)
      = prev (ix4 b ch y x) + padv (fun r' c' => X (ix4 b ch r' c')) (y.val + i.val) (x.val + j.val) * Kn (ix5 b i j y x) :=
  stage_apply X (padded X) Kn prev i j (padded_apply X) _ _ _ _ _ b ch y x

/-- The host program's result is the filtered map: the 25 stages added up, the zero start dropped. -/
theorem refTerm_eq (Kn : SK.Idx → EReal) (X : SX.Idx → EReal) : refTerm Kn X = filtered Kn X := by
  funext idx
  obtain ⟨b, ch, y, x, rfl⟩ : ∃ (b : Fin 2) (ch : Fin 32) (y x : Fin 256), idx = ix4 b ch y x :=
    ⟨idx 0, idx 1, idx 2, idx 3, eq_ix4 idx⟩
  unfold refTerm
  simp only [stage_eq, zeros_apply, zero_add]
  rw [filtered_apply]
  rfl

end Cert.HostTap

end
-- ==== Proof.RefOps.lean ====
/- GENERATED by the script named on line 1 (kept in this directory's scratch/), from the entries of the reference program's
   operation list: a table, no argument.  The host program's 180 operations in short lists — the five before the taps
   (the zero constants, the padded map, the zero array), then the seven of each tap (tap 16's cut in two where the printed
   program's second window ends) — and for each tap one fact read off its seven operations: its last buffer holds one
   stage (Proof/HostTap.lean) of the buffer before, the padded map and the filters; the padded map and the two arguments
   are left as they were. -/
import proofs.«125306_j47708496724546_2_alg».proof.Proof.Gen.ReferenceIdeal
import proofs.«125306_j47708496724546_2_alg».proof.Proof.HostTap
import Idealize.ShloMosaic.Lib.StableHlo.Run

noncomputable section

namespace Cert.RefOps

open Cert.ReferenceIdeal Cert.ReferenceIdeal.Gen Idealize.ShloMosaic Idealize.ShloMosaic.TcCoe Idealize.SL.Sem Idealize.ShloMosaic.StableHlo
open Cert.HostTap

variable {F : FTy → Type} [FloatOps F]

abbrev pre : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S2x32x256x256, .f32⟩) main_arg1) (TRef.of (T := ⟨S_, .f32⟩) main_call0_v0) (TRef.of (T := ⟨S2x32x260x260, .f32⟩) main_v0) (fun x v => pad S2x32x260x260 ![0, 0, 2, 2] ![0, 0, 2, 2] ![0, 0, 0, 0] x v pads_S2x32x256x256_S2x32x260x260_000_000_220_220 h_S_),
    nullary main_cst (constant S_ .f32 0x00000000#32),
    unary main_cst main_v1 (broadcastInDim S2x32x256x256 ![] bcast_S_S2x32x256x256 : (⟨S_, .f32⟩ : BufTy).Contents (Elt F) → (⟨S2x32x256x256, .f32⟩ : BufTy).Contents (Elt F)) ]

/-- After the five leading operations: the zero array, the padded map of the features, the arguments as they were. -/
theorem pre_step (V : Valuation τ sig (Elt Ideal)) :
    after (pre (F := Ideal)) V (Proc.devRef .tc main_v1) = zeros ∧ after (pre (F := Ideal)) V (Proc.devRef .tc main_v0) = padded (V (Proc.devRef .tc main_arg1))
    ∧ after (pre (F := Ideal)) V (Proc.devRef .tc main_arg0) = V (Proc.devRef .tc main_arg0) ∧ after (pre (F := Ideal)) V (Proc.devRef .tc main_arg1) = V (Proc.devRef .tc main_arg1) := by
  refine ⟨?_, ?_, ?_, ?_⟩
  · after_results; rfl
  · after_results; rfl
  · after_results
  · after_results

abbrev tap0 : List (HloOp τ sig (Elt F)) :=
  [ unary main_v0 main_v2 ((extractStridedSlice S2x32x256x256 ![0, 0, 0, 0] · slices_S2x32x260x260_S2x32x256x256_0_0_0_0) : (⟨S2x32x260x260, .f32⟩ : BufTy).Contents (Elt F) → (⟨S2x32x256x256, .f32⟩ : BufTy).Contents (Elt F)),
    unary main_arg0 main_v3 ((extractStridedSlice S2x1x1x256x256 ![0, 0, 0, 0, 0] · slices_S2x5x5x256x256_S2x1x1x256x256_0_0_0_0_0) : (⟨S2x5x5x256x256, .f32⟩ : BufTy).Contents (Elt F) → (⟨S2x1x1x256x256, .f32⟩ : BufTy).Contents (Elt F)),
    reshape main_v3 main_v4 rfl shapeCasts_S2x1x1x256x256_S2x256x256,
    unary main_v4 main_v5 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v5 main_v6 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v2 main_v6 main_v7 (mulf : (⟨S2x32x256x256, .f32⟩ : BufTy).Contents (Elt F) → (⟨S2x32x256x256, .f32⟩ : BufTy).Contents (Elt F) → (⟨S2x32x256x256, .f32⟩ : BufTy).Contents (Elt F)),
    binary main_v1 main_v7 main_v8 (addf : (⟨S2x32x256x256, .f32⟩ : BufTy).Contents (Elt F) → (⟨S2x32x256x256, .f32⟩ : BufTy).Contents (Elt F) → (⟨S2x32x256x256, .f32⟩ : BufTy).Contents (Elt F)) ]
theorem tap0_step (W : Valuation τ sig (Elt Ideal)) (acc : SX.Idx → EReal) (P : SP.Idx → EReal) (Kn : SK.Idx → EReal) (X : SX.Idx → EReal)
    (h : W (Proc.devRef .tc main_v1) = acc ∧ W (Proc.devRef .tc main_v0) = P ∧ W (Proc.devRef .tc main_arg0) = Kn ∧ W (Proc.devRef .tc main_arg1) = X) :
    after (tap0 (F := Ideal)) W (Proc.devRef .tc main_v8) = stage acc P Kn 0 0 ∧ after (tap0 (F := Ideal)) W (Proc.devRef .tc main_v0) = P
    ∧ after (tap0 (F := Ideal)) W (Proc.devRef .tc main_arg0) = Kn ∧ after (tap0 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap1 : List (HloOp τ sig (Elt F)) :=
  [ unary main_v0 main_v9 ((extractStridedSlice S2x32x256x256 ![0, 0, 0, 1] · slices_S2x32x260x260_S2x32x256x256_0_0_0_1) : (⟨S2x32x260x260, .f32⟩ : BufTy).Contents (Elt F) → (⟨S2x32x256x256, .f32⟩ : BufTy).Contents (Elt F)),
    unary main_arg0 main_v10 ((extractStridedSlice S2x1x1x256x256 ![0, 0, 1, 0, 0] · slices_S2x5x5x256x256_S2x1x1x256x256_0_0_1_0_0) : (⟨S2x5x5x256x256, .f32⟩ : BufTy).Contents (Elt F) → (⟨S2x1x1x256x256, .f32⟩ : BufTy).Contents (Elt F)),
    reshape main_v10 main_v11 rfl shapeCasts_S2x1x1x256x256_S2x256x256,
    unary main_v11 main_v12 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v12 main_v13 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v9 main_v13 main_v14 (mulf : (⟨S2x32x256x256, .f32⟩ : BufTy).Contents (Elt F) → (⟨S2x32x256x256, .f32⟩ : BufTy).Contents (Elt F) → (⟨S2x32x256x256, .f32⟩ : BufTy).Contents (Elt F)),
    binary main_v8 main_v14 main_v15 (addf : (⟨S2x32x256x256, .f32⟩ : BufTy).Contents (Elt F) → (⟨S2x32x256x256, .f32⟩ : BufTy).Contents (Elt F) → (⟨S2x32x256x256, .f32⟩ : BufTy).Contents (Elt F)) ]
theorem tap1_step (W : Valuation τ sig (Elt Ideal)) (acc : SX.Idx → EReal) (P : SP.Idx → EReal) (Kn : SK.Idx → EReal) (X : SX.Idx → EReal)
    (h : W (Proc.devRef .tc main_v8) = acc ∧ W (Proc.devRef .tc main_v0) = P ∧ W (Proc.devRef .tc main_arg0) = Kn ∧ W (Proc.devRef .tc main_arg1) = X) :
    after (tap1 (F := Ideal)) W (Proc.devRef .tc main_v15) = stage acc P Kn 0 1 ∧ after (tap1 (F := Ideal)) W (Proc.devRef .tc main_v0) = P
    ∧ after (tap1 (F := Ideal)) W (Proc.devRef .tc main_arg0) = Kn ∧ after (tap1 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap2 : List (HloOp τ sig (Elt F)) :=
  [ unary main_v0 main_v16 ((extractStridedSlice S2x32x256x256 ![0, 0, 0, 2] · slices_S2x32x260x260_S2x32x256x256_0_0_0_2) : (⟨S2x32x260x260, .f32⟩ : BufTy).Contents (Elt F) → (⟨S2x32x256x256, .f32⟩ : BufTy).Contents (Elt F)),
    unary main_arg0 main_v17 ((extractStridedSlice S2x1x1x256x256 ![0, 0, 2, 0, 0] · slices_S2x5x5x256x256_S2x1x1x256x256_0_0_2_0_0) : (⟨S2x5x5x256x256, .f32⟩ : BufTy).Contents (Elt F) → (⟨S2x1x1x256x256, .f32⟩ : BufTy).Contents (Elt F)),
    reshape main_v17 main_v18 rfl shapeCasts_S2x1x1x256x256_S2x256x256,
    unary main_v18 main_v19 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v19 main_v20 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v16 main_v20 main_v21 (mulf : (⟨S2x32x256x256, .f32⟩ : BufTy).Contents (Elt F) → (⟨S2x32x256x256, .f32⟩ : BufTy).Contents (Elt F) → (⟨S2x32x256x256, .f32⟩ : BufTy).Contents (Elt F)),
    binary main_v15 main_v21 main_v22 (addf : (⟨S2x32x256x256, .f32⟩ : BufTy).Contents (Elt F) → (⟨S2x32x256x256, .f32⟩ : BufTy).Contents (Elt F) → (⟨S2x32x256x256, .f32⟩ : BufTy).Contents (Elt F)) ]
theorem tap2_step (W : Valuation τ sig (Elt Ideal)) (acc : SX.Idx → EReal) (P : SP.Idx → EReal) (Kn : SK.Idx → EReal) (X : SX.Idx → EReal)
    (h : W (Proc.devRef .tc main_v15) = acc ∧ W (Proc.devRef .tc main_v0) = P ∧ W (Proc.devRef .tc main_arg0) = Kn ∧ W (Proc.devRef .tc main_arg1) = X) :
    after (tap2 (F := Ideal)) W (Proc.devRef .tc main_v22) = stage acc P Kn 0 2 ∧ after (tap2 (F := Ideal)) W (Proc.devRef .tc main_v0) = P
    ∧ after (tap2 (F := Ideal)) W (Proc.devRef .tc main_arg0) = Kn ∧ after (tap2 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap3 : List (HloOp τ sig (Elt F)) :=
  [ unary main_v0 main_v23 ((extractStridedSlice S2x32x256x256 ![0, 0, 0, 3] · slices_S2x32x260x260_S2x32x256x256_0_0_0_3) : (⟨S2x32x260x260, .f32⟩ : BufTy).Contents (Elt F) → (⟨S2x32x256x256, .f32⟩ : BufTy).Contents (Elt F)),
    unary main_arg0 main_v24 ((extractStridedSlice S2x1x1x256x256 ![0, 0, 3, 0, 0] · slices_S2x5x5x256x256_S2x1x1x256x256_0_0_3_0_0) : (⟨S2x5x5x256x256, .f32⟩ : BufTy).Contents (Elt F) → (⟨S2x1x1x256x256, .f32⟩ : BufTy).Contents (Elt F)),
    reshape main_v24 main_v25 rfl shapeCasts_S2x1x1x256x256_S2x256x256,
    unary main_v25 main_v26 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v26 main_v27 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v23 main_v27 main_v28 (mulf : (⟨S2x32x256x256, .f32⟩ : BufTy).Contents (Elt F) → (⟨S2x32x256x256, .f32⟩ : BufTy).Contents (Elt F) → (⟨S2x32x256x256, .f32⟩ : BufTy).Contents (Elt F)),
    binary main_v22 main_v28 main_v29 (addf : (⟨S2x32x256x256, .f32⟩ : BufTy).Contents (Elt F) → (⟨S2x32x256x256, .f32⟩ : BufTy).Contents (Elt F) → (⟨S2x32x256x256, .f32⟩ : BufTy).Contents (Elt F)) ]
theorem tap3_step (W : Valuation τ sig (Elt Ideal)) (acc : SX.Idx → EReal) (P : SP.Idx → EReal) (Kn : SK.Idx → EReal) (X : SX.Idx → EReal)
    (h : W (Proc.devRef .tc main_v22) = acc ∧ W (Proc.devRef .tc main_v0) = P ∧ W (Proc.devRef .tc main_arg0) = Kn ∧ W (Proc.devRef .tc main_arg1) = X) :
    after (tap3 (F := Ideal)) W (Proc.devRef .tc main_v29) = stage acc P Kn 0 3 ∧ after (tap3 (F := Ideal)) W (Proc.devRef .tc main_v0) = P
    ∧ after (tap3 (F := Ideal)) W (Proc.devRef .tc main_arg0) = Kn ∧ after (tap3 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap4 : List (HloOp τ sig (Elt F)) :=
  [ unary main_v0 main_v30 ((extractStridedSlice S2x32x256x256 ![0, 0, 0, 4] · slices_S2x32x260x260_S2x32x256x256_0_0_0_4) : (⟨S2x32x260x260, .f32⟩ : BufTy).Contents (Elt F) → (⟨S2x32x256x256, .f32⟩ : BufTy).Contents (Elt F)),
    unary main_arg0 main_v31 ((extractStridedSlice S2x1x1x256x256 ![0, 0, 4, 0, 0] · slices_S2x5x5x256x256_S2x1x1x256x256_0_0_4_0_0) : (⟨S2x5x5x256x256, .f32⟩ : BufTy).Contents (Elt F) → (⟨S2x1x1x256x256, .f32⟩ : BufTy).Contents (Elt F)),
    reshape main_v31 main_v32 rfl shapeCasts_S2x1x1x256x256_S2x256x256,
    unary main_v32 main_v33 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v33 main_v34 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v30 main_v34 main_v35 (mulf : (⟨S2x32x256x256, .f32⟩ : BufTy).Contents (Elt F) → (⟨S2x32x256x256, .f32⟩ : BufTy).Contents (Elt F) → (⟨S2x32x256x256, .f32⟩ : BufTy).Contents (Elt F)),
    binary main_v29 main_v35 main_v36 (addf : (⟨S2x32x256x256, .f32⟩ : BufTy).Contents (Elt F) → (⟨S2x32x256x256, .f32⟩ : BufTy).Contents (Elt F) → (⟨S2x32x256x256, .f32⟩ : BufTy).Contents (Elt F)) ]
theorem tap4_step (W : Valuation τ sig (Elt Ideal)) (acc : SX.Idx → EReal) (P : SP.Idx → EReal) (Kn : SK.Idx → EReal) (X : SX.Idx → EReal)
    (h : W (Proc.devRef .tc main_v29) = acc ∧ W (Proc.devRef .tc main_v0) = P ∧ W (Proc.devRef .tc main_arg0) = Kn ∧ W (Proc.devRef .tc main_arg1) = X) :
    after (tap4 (F := Ideal)) W (Proc.devRef .tc main_v36) = stage acc P Kn 0 4 ∧ after (tap4 (F := Ideal)) W (Proc.devRef .tc main_v0) = P
    ∧ after (tap4 (F := Ideal)) W (Proc.devRef .tc main_arg0) = Kn ∧ after (tap4 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap5 : List (HloOp τ sig (Elt F)) :=
  [ unary main_v0 main_v37 ((extractStridedSlice S2x32x256x256 ![0, 0, 1, 0] · slices_S2x32x260x260_S2x32x256x256_0_0_1_0) : (⟨S2x32x260x260, .f32⟩ : BufTy).Contents (Elt F) → (⟨S2x32x256x256, .f32⟩ : BufTy).Contents (Elt F)),
    unary main_arg0 main_v38 ((extractStridedSlice S2x1x1x256x256 ![0, 1, 0, 0, 0] · slices_S2x5x5x256x256_S2x1x1x256x256_0_1_0_0_0) : (⟨S2x5x5x256x256, .f32⟩ : BufTy).Contents (Elt F) → (⟨S2x1x1x256x256, .f32⟩ : BufTy).Contents (Elt F)),
    reshape main_v38 main_v39 rfl shapeCasts_S2x1x1x256x256_S2x256x256,
    unary main_v39 main_v40 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v40 main_v41 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v37 main_v41 main_v42 (mulf : (⟨S2x32x256x256, .f32⟩ : BufTy).Contents (Elt F) → (⟨S2x32x256x256, .f32⟩ : BufTy).Contents (Elt F) → (⟨S2x32x256x256, .f32⟩ : BufTy).Contents (Elt F)),
    binary main_v36 main_v42 main_v43 (addf : (⟨S2x32x256x256, .f32⟩ : BufTy).Contents (Elt F) → (⟨S2x32x256x256, .f32⟩ : BufTy).Contents (Elt F) → (⟨S2x32x256x256, .f32⟩ : BufTy).Contents (Elt F)) ]
theorem tap5_step (W : Valuation τ sig (Elt Ideal)) (acc : SX.Idx → EReal) (P : SP.Idx → EReal) (Kn : SK.Idx → EReal) (X : SX.Idx → EReal)
    (h : W (Proc.devRef .tc main_v36) = acc ∧ W (Proc.devRef .tc main_v0) = P ∧ W (Proc.devRef .tc main_arg0) = Kn ∧ W (Proc.devRef .tc main_arg1) = X) :
    after (tap5 (F := Ideal)) W (Proc.devRef .tc main_v43) = stage acc P Kn 1 0 ∧ after (tap5 (F := Ideal)) W (Proc.devRef .tc main_v0) = P
    ∧ after (tap5 (F := Ideal)) W (Proc.devRef .tc main_arg0) = Kn ∧ after (tap5 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap6 : List (HloOp τ sig (Elt F)) :=
  [ unary main_v0 main_v44 ((extractStridedSlice S2x32x256x256 ![0, 0, 1, 1] · slices_S2x32x260x260_S2x32x256x256_0_0_1_1) : (⟨S2x32x260x260, .f32⟩ : BufTy).Contents (Elt F) → (⟨S2x32x256x256, .f32⟩ : BufTy).Contents (Elt F)),
    unary main_arg0 main_v45 ((extractStridedSlice S2x1x1x256x256 ![0, 1, 1, 0, 0] · slices_S2x5x5x256x256_S2x1x1x256x256_0_1_1_0_0) : (⟨S2x5x5x256x256, .f32⟩ : BufTy).Contents (Elt F) → (⟨S2x1x1x256x256, .f32⟩ : BufTy).Contents (Elt F)),
    reshape main_v45 main_v46 rfl shapeCasts_S2x1x1x256x256_S2x256x256,
    unary main_v46 main_v47 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v47 main_v48 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v44 main_v48 main_v49 (mulf : (⟨S2x32x256x256, .f32⟩ : BufTy).Contents (Elt F) → (⟨S2x32x256x256, .f32⟩ : BufTy).Contents (Elt F) → (⟨S2x32x256x256, .f32⟩ : BufTy).Contents (Elt F)),
    binary main_v43 main_v49 main_v50 (addf : (⟨S2x32x256x256, .f32⟩ : BufTy).Contents (Elt F) → (⟨S2x32x256x256, .f32⟩ : BufTy).Contents (Elt F) → (⟨S2x32x256x256, .f32⟩ : BufTy).Contents (Elt F)) ]
theorem tap6_step (W : Valuation τ sig (Elt Ideal)) (acc : SX.Idx → EReal) (P : SP.Idx → EReal) (Kn : SK.Idx → EReal) (X : SX.Idx → EReal)
    (h : W (Proc.devRef .tc main_v43) = acc ∧ W (Proc.devRef .tc main_v0) = P ∧ W (Proc.devRef .tc main_arg0) = Kn ∧ W (Proc.devRef .tc main_arg1) = X) :
    after (tap6 (F := Ideal)) W (Proc.devRef .tc main_v50) = stage acc P Kn 1 1 ∧ after (tap6 (F := Ideal)) W (Proc.devRef .tc main_v0) = P
    ∧ after (tap6 (F := Ideal)) W (Proc.devRef .tc main_arg0) = Kn ∧ after (tap6 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap7 : List (HloOp τ sig (Elt F)) :=
  [ unary main_v0 main_v51 ((extractStridedSlice S2x32x256x256 ![0, 0, 1, 2] · slices_S2x32x260x260_S2x32x256x256_0_0_1_2) : (⟨S2x32x260x260, .f32⟩ : BufTy).Contents (Elt F) → (⟨S2x32x256x256, .f32⟩ : BufTy).Contents (Elt F)),
    unary main_arg0 main_v52 ((extractStridedSlice S2x1x1x256x256 ![0, 1, 2, 0, 0] · slices_S2x5x5x256x256_S2x1x1x256x256_0_1_2_0_0) : (⟨S2x5x5x256x256, .f32⟩ : BufTy).Contents (Elt F) → (⟨S2x1x1x256x256, .f32⟩ : BufTy).Contents (Elt F)),
    reshape main_v52 main_v53 rfl shapeCasts_S2x1x1x256x256_S2x256x256,
    unary main_v53 main_v54 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v54 main_v55 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v51 main_v55 main_v56 (mulf : (⟨S2x32x256x256, .f32⟩ : BufTy).Contents (Elt F) → (⟨S2x32x256x256, .f32⟩ : BufTy).Contents (Elt F) → (⟨S2x32x256x256, .f32⟩ : BufTy).Contents (Elt F)),
    binary main_v50 main_v56 main_v57 (addf : (⟨S2x32x256x256, .f32⟩ : BufTy).Contents (Elt F) → (⟨S2x32x256x256, .f32⟩ : BufTy).Contents (Elt F) → (⟨S2x32x256x256, .f32⟩ : BufTy).Contents (Elt F)) ]
theorem tap7_step (W : Valuation τ sig (Elt Ideal)) (acc : SX.Idx → EReal) (P : SP.Idx → EReal) (Kn : SK.Idx → EReal) (X : SX.Idx → EReal)
    (h : W (Proc.devRef .tc main_v50) = acc ∧ W (Proc.devRef .tc main_v0) = P ∧ W (Proc.devRef .tc main_arg0) = Kn ∧ W (Proc.devRef .tc main_arg1) = X) :
    after (tap7 (F := Ideal)) W (Proc.devRef .tc main_v57) = stage acc P Kn 1 2 ∧ after (tap7 (F := Ideal)) W (Proc.devRef .tc main_v0) = P
    ∧ after (tap7 (F := Ideal)) W (Proc.devRef .tc main_arg0) = Kn ∧ after (tap7 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap8 : List (HloOp τ sig (Elt F)) :=
  [ unary main_v0 main_v58 ((extractStridedSlice S2x32x256x256 ![0, 0, 1, 3] · slices_S2x32x260x260_S2x32x256x256_0_0_1_3) : (⟨S2x32x260x260, .f32⟩ : BufTy).Contents (Elt F) → (⟨S2x32x256x256, .f32⟩ : BufTy).Contents (Elt F)),
    unary main_arg0 main_v59 ((extractStridedSlice S2x1x1x256x256 ![0, 1, 3, 0, 0] · slices_S2x5x5x256x256_S2x1x1x256x256_0_1_3_0_0) : (⟨S2x5x5x256x256, .f32⟩ : BufTy).Contents (Elt F) → (⟨S2x1x1x256x256, .f32⟩ : BufTy).Contents (Elt F)),
    reshape main_v59 main_v60 rfl shapeCasts_S2x1x1x256x256_S2x256x256,
    unary main_v60 main_v61 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v61 main_v62 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v58 main_v62 main_v63 (mulf : (⟨S2x32x256x256, .f32⟩ : BufTy).Contents (Elt F) → (⟨S2x32x256x256, .f32⟩ : BufTy).Contents (Elt F) → (⟨S2x32x256x256, .f32⟩ : BufTy).Contents (Elt F)),
    binary main_v57 main_v63 main_v64 (addf : (⟨S2x32x256x256, .f32⟩ : BufTy).Contents (Elt F) → (⟨S2x32x256x256, .f32⟩ : BufTy).Contents (Elt F) → (⟨S2x32x256x256, .f32⟩ : BufTy).Contents (Elt F)) ]
theorem tap8_step (W : Valuation τ sig (Elt Ideal)) (acc : SX.Idx → EReal) (P : SP.Idx → EReal) (Kn : SK.Idx → EReal) (X : SX.Idx → EReal)
    (h : W (Proc.devRef .tc main_v57) = acc ∧ W (Proc.devRef .tc main_v0) = P ∧ W (Proc.devRef .tc main_arg0) = Kn ∧ W (Proc.devRef .tc main_arg1) = X) :
    after (tap8 (F := Ideal)) W (Proc.devRef .tc main_v64) = stage acc P Kn 1 3 ∧ after (tap8 (F := Ideal)) W (Proc.devRef .tc main_v0) = P
    ∧ after (tap8 (F := Ideal)) W (Proc.devRef .tc main_arg0) = Kn ∧ after (tap8 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap9 : List (HloOp τ sig (Elt F)) :=
  [ unary main_v0 main_v65 ((extractStridedSlice S2x32x256x256 ![0, 0, 1, 4] · slices_S2x32x260x260_S2x32x256x256_0_0_1_4) : (⟨S2x32x260x260, .f32⟩ : BufTy).Contents (Elt F) → (⟨S2x32x256x256, .f32⟩ : BufTy).Contents (Elt F)),
    unary main_arg0 main_v66 ((extractStridedSlice S2x1x1x256x256 ![0, 1, 4, 0, 0] · slices_S2x5x5x256x256_S2x1x1x256x256_0_1_4_0_0) : (⟨S2x5x5x256x256, .f32⟩ : BufTy).Contents (Elt F) → (⟨S2x1x1x256x256, .f32⟩ : BufTy).Contents (Elt F)),
    reshape main_v66 main_v67 rfl shapeCasts_S2x1x1x256x256_S2x256x256,
    unary main_v67 main_v68 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v68 main_v69 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v65 main_v69 main_v70 (mulf : (⟨S2x32x256x256, .f32⟩ : BufTy).Contents (Elt F) → (⟨S2x32x256x256, .f32⟩ : BufTy).Contents (Elt F) → (⟨S2x32x256x256, .f32⟩ : BufTy).Contents (Elt F)),
    binary main_v64 main_v70 main_v71 (addf : (⟨S2x32x256x256, .f32⟩ : BufTy).Contents (Elt F) → (⟨S2x32x256x256, .f32⟩ : BufTy).Contents (Elt F) → (⟨S2x32x256x256, .f32⟩ : BufTy).Contents (Elt F)) ]
theorem tap9_step (W : Valuation τ sig (Elt Ideal)) (acc : SX.Idx → EReal) (P : SP.Idx → EReal) (Kn : SK.Idx → EReal) (X : SX.Idx → EReal)
    (h : W (Proc.devRef .tc main_v64) = acc ∧ W (Proc.devRef .tc main_v0) = P ∧ W (Proc.devRef .tc main_arg0) = Kn ∧ W (Proc.devRef .tc main_arg1) = X) :
    after (tap9 (F := Ideal)) W (Proc.devRef .tc main_v71) = stage acc P Kn 1 4 ∧ after (tap9 (F := Ideal)) W (Proc.devRef .tc main_v0) = P
    ∧ after (tap9 (F := Ideal)) W (Proc.devRef .tc main_arg0) = Kn ∧ after (tap9 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap10 : List (HloOp τ sig (Elt F)) :=
  [ unary main_v0 main_v72 ((extractStridedSlice S2x32x256x256 ![0, 0, 2, 0] · slices_S2x32x260x260_S2x32x256x256_0_0_2_0) : (⟨S2x32x260x260, .f32⟩ : BufTy).Contents (Elt F) → (⟨S2x32x256x256, .f32⟩ : BufTy).Contents (Elt F)),
    unary main_arg0 main_v73 ((extractStridedSlice S2x1x1x256x256 ![0, 2, 0, 0, 0] · slices_S2x5x5x256x256_S2x1x1x256x256_0_2_0_0_0) : (⟨S2x5x5x256x256, .f32⟩ : BufTy).Contents (Elt F) → (⟨S2x1x1x256x256, .f32⟩ : BufTy).Contents (Elt F)),
    reshape main_v73 main_v74 rfl shapeCasts_S2x1x1x256x256_S2x256x256,
    unary main_v74 main_v75 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v75 main_v76 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v72 main_v76 main_v77 (mulf : (⟨S2x32x256x256, .f32⟩ : BufTy).Contents (Elt F) → (⟨S2x32x256x256, .f32⟩ : BufTy).Contents (Elt F) → (⟨S2x32x256x256, .f32⟩ : BufTy).Contents (Elt F)),
    binary main_v71 main_v77 main_v78 (addf : (⟨S2x32x256x256, .f32⟩ : BufTy).Contents (Elt F) → (⟨S2x32x256x256, .f32⟩ : BufTy).Contents (Elt F) → (⟨S2x32x256x256, .f32⟩ : BufTy).Contents (Elt F)) ]
theorem tap10_step (W : Valuation τ sig (Elt Ideal)) (acc : SX.Idx → EReal) (P : SP.Idx → EReal) (Kn : SK.Idx → EReal) (X : SX.Idx → EReal)
    (h : W (Proc.devRef .tc main_v71) = acc ∧ W (Proc.devRef .tc main_v0) = P ∧ W (Proc.devRef .tc main_arg0) = Kn ∧ W (Proc.devRef .tc main_arg1) = X) :
    after (tap10 (F := Ideal)) W (Proc.devRef .tc main_v78) = stage acc P Kn 2 0 ∧ after (tap10 (F := Ideal)) W (Proc.devRef .tc main_v0) = P
    ∧ after (tap10 (F := Ideal)) W (Proc.devRef .tc main_arg0) = Kn ∧ after (tap10 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap11 : List (HloOp τ sig (Elt F)) :=
  [ unary main_v0 main_v79 ((extractStridedSlice S2x32x256x256 ![0, 0, 2, 1] · slices_S2x32x260x260_S2x32x256x256_0_0_2_1) : (⟨S2x32x260x260, .f32⟩ : BufTy).Contents (Elt F) → (⟨S2x32x256x256, .f32⟩ : BufTy).Contents (Elt F)),
    unary main_arg0 main_v80 ((extractStridedSlice S2x1x1x256x256 ![0, 2, 1, 0, 0] · slices_S2x5x5x256x256_S2x1x1x256x256_0_2_1_0_0) : (⟨S2x5x5x256x256, .f32⟩ : BufTy).Contents (Elt F) → (⟨S2x1x1x256x256, .f32⟩ : BufTy).Contents (Elt F)),
    reshape main_v80 main_v81 rfl shapeCasts_S2x1x1x256x256_S2x256x256,
    unary main_v81 main_v82 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v82 main_v83 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v79 main_v83 main_v84 (mulf : (⟨S2x32x256x256, .f32⟩ : BufTy).Contents (Elt F) → (⟨S2x32x256x256, .f32⟩ : BufTy).Contents (Elt F) → (⟨S2x32x256x256, .f32⟩ : BufTy).Contents (Elt F)),
    binary main_v78 main_v84 main_v85 (addf : (⟨S2x32x256x256, .f32⟩ : BufTy).Contents (Elt F) → (⟨S2x32x256x256, .f32⟩ : BufTy).Contents (Elt F) → (⟨S2x32x256x256, .f32⟩ : BufTy).Contents (Elt F)) ]
theorem tap11_step (W : Valuation τ sig (Elt Ideal)) (acc : SX.Idx → EReal) (P : SP.Idx → EReal) (Kn : SK.Idx → EReal) (X : SX.Idx → EReal)
    (h : W (Proc.devRef .tc main_v78) = acc ∧ W (Proc.devRef .tc main_v0) = P ∧ W (Proc.devRef .tc main_arg0) = Kn ∧ W (Proc.devRef .tc main_arg1) = X) :
    after (tap11 (F := Ideal)) W (Proc.devRef .tc main_v85) = stage acc P Kn 2 1 ∧ after (tap11 (F := Ideal)) W (Proc.devRef .tc main_v0) = P
    ∧ after (tap11 (F := Ideal)) W (Proc.devRef .tc main_arg0) = Kn ∧ after (tap11 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap12 : List (HloOp τ sig (Elt F)) :=
  [ unary main_v0 main_v86 ((extractStridedSlice S2x32x256x256 ![0, 0, 2, 2] · slices_S2x32x260x260_S2x32x256x256_0_0_2_2) : (⟨S2x32x260x260, .f32⟩ : BufTy).Contents (Elt F) → (⟨S2x32x256x256, .f32⟩ : BufTy).Contents (Elt F)),
    unary main_arg0 main_v87 ((extractStridedSlice S2x1x1x256x256 ![0, 2, 2, 0, 0] · slices_S2x5x5x256x256_S2x1x1x256x256_0_2_2_0_0) : (⟨S2x5x5x256x256, .f32⟩ : BufTy).Contents (Elt F) → (⟨S2x1x1x256x256, .f32⟩ : BufTy).Contents (Elt F)),
    reshape main_v87 main_v88 rfl shapeCasts_S2x1x1x256x256_S2x256x256,
    unary main_v88 main_v89 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v89 main_v90 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v86 main_v90 main_v91 (mulf : (⟨S2x32x256x256, .f32⟩ : BufTy).Contents (Elt F) → (⟨S2x32x256x256, .f32⟩ : BufTy).Contents (Elt F) → (⟨S2x32x256x256, .f32⟩ : BufTy).Contents (Elt F)),
    binary main_v85 main_v91 main_v92 (addf : (⟨S2x32x256x256, .f32⟩ : BufTy).Contents (Elt F) → (⟨S2x32x256x256, .f32⟩ : BufTy).Contents (Elt F) → (⟨S2x32x256x256, .f32⟩ : BufTy).Contents (Elt F)) ]
theorem tap12_step (W : Valuation τ sig (Elt Ideal)) (acc : SX.Idx → EReal) (P : SP.Idx → EReal) (Kn : SK.Idx → EReal) (X : SX.Idx → EReal)
    (h : W (Proc.devRef .tc main_v85) = acc ∧ W (Proc.devRef .tc main_v0) = P ∧ W (Proc.devRef .tc main_arg0) = Kn ∧ W (Proc.devRef .tc main_arg1) = X) :
    after (tap12 (F := Ideal)) W (Proc.devRef .tc main_v92) = stage acc P Kn 2 2 ∧ after (tap12 (F := Ideal)) W (Proc.devRef .tc main_v0) = P
    ∧ after (tap12 (F := Ideal)) W (Proc.devRef .tc main_arg0) = Kn ∧ after (tap12 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap13 : List (HloOp τ sig (Elt F)) :=
  [ unary main_v0 main_v93 ((extractStridedSlice S2x32x256x256 ![0, 0, 2, 3] · slices_S2x32x260x260_S2x32x256x256_0_0_2_3) : (⟨S2x32x260x260, .f32⟩ : BufTy).Contents (Elt F) → (⟨S2x32x256x256, .f32⟩ : BufTy).Contents (Elt F)),
    unary main_arg0 main_v94 ((extractStridedSlice S2x1x1x256x256 ![0, 2, 3, 0, 0] · slices_S2x5x5x256x256_S2x1x1x256x256_0_2_3_0_0) : (⟨S2x5x5x256x256, .f32⟩ : BufTy).Contents (Elt F) → (⟨S2x1x1x256x256, .f32⟩ : BufTy).Contents (Elt F)),
    reshape main_v94 main_v95 rfl shapeCasts_S2x1x1x256x256_S2x256x256,
    unary main_v95 main_v96 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v96 main_v97 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v93 main_v97 main_v98 (mulf : (⟨S2x32x256x256, .f32⟩ : BufTy).Contents (Elt F) → (⟨S2x32x256x256, .f32⟩ : BufTy).Contents (Elt F) → (⟨S2x32x256x256, .f32⟩ : BufTy).Contents (Elt F)),
    binary main_v92 main_v98 main_v99 (addf : (⟨S2x32x256x256, .f32⟩ : BufTy).Contents (Elt F) → (⟨S2x32x256x256, .f32⟩ : BufTy).Contents (Elt F) → (⟨S2x32x256x256, .f32⟩ : BufTy).Contents (Elt F)) ]
theorem tap13_step (W : Valuation τ sig (Elt Ideal)) (acc : SX.Idx → EReal) (P : SP.Idx → EReal) (Kn : SK.Idx → EReal) (X : SX.Idx → EReal)
    (h : W (Proc.devRef .tc main_v92) = acc ∧ W (Proc.devRef .tc main_v0) = P ∧ W (Proc.devRef .tc main_arg0) = Kn ∧ W (Proc.devRef .tc main_arg1) = X) :
    after (tap13 (F := Ideal)) W (Proc.devRef .tc main_v99) = stage acc P Kn 2 3 ∧ after (tap13 (F := Ideal)) W (Proc.devRef .tc main_v0) = P
    ∧ after (tap13 (F := Ideal)) W (Proc.devRef .tc main_arg0) = Kn ∧ after (tap13 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap14 : List (HloOp τ sig (Elt F)) :=
  [ unary main_v0 main_v100 ((extractStridedSlice S2x32x256x256 ![0, 0, 2, 4] · slices_S2x32x260x260_S2x32x256x256_0_0_2_4) : (⟨S2x32x260x260, .f32⟩ : BufTy).Contents (Elt F) → (⟨S2x32x256x256, .f32⟩ : BufTy).Contents (Elt F)),
    unary main_arg0 main_v101 ((extractStridedSlice S2x1x1x256x256 ![0, 2, 4, 0, 0] · slices_S2x5x5x256x256_S2x1x1x256x256_0_2_4_0_0) : (⟨S2x5x5x256x256, .f32⟩ : BufTy).Contents (Elt F) → (⟨S2x1x1x256x256, .f32⟩ : BufTy).Contents (Elt F)),
    reshape main_v101 main_v102 rfl shapeCasts_S2x1x1x256x256_S2x256x256,
    unary main_v102 main_v103 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v103 main_v104 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v100 main_v104 main_v105 (mulf : (⟨S2x32x256x256, .f32⟩ : BufTy).Contents (Elt F) → (⟨S2x32x256x256, .f32⟩ : BufTy).Contents (Elt F) → (⟨S2x32x256x256, .f32⟩ : BufTy).Contents (Elt F)),
    binary main_v99 main_v105 main_v106 (addf : (⟨S2x32x256x256, .f32⟩ : BufTy).Contents (Elt F) → (⟨S2x32x256x256, .f32⟩ : BufTy).Contents (Elt F) → (⟨S2x32x256x256, .f32⟩ : BufTy).Contents (Elt F)) ]
theorem tap14_step (W : Valuation τ sig (Elt Ideal)) (acc : SX.Idx → EReal) (P : SP.Idx → EReal) (Kn : SK.Idx → EReal) (X : SX.Idx → EReal)
    (h : W (Proc.devRef .tc main_v99) = acc ∧ W (Proc.devRef .tc main_v0) = P ∧ W (Proc.devRef .tc main_arg0) = Kn ∧ W (Proc.devRef .tc main_arg1) = X) :
    after (tap14 (F := Ideal)) W (Proc.devRef .tc main_v106) = stage acc P Kn 2 4 ∧ after (tap14 (F := Ideal)) W (Proc.devRef .tc main_v0) = P
    ∧ after (tap14 (F := Ideal)) W (Proc.devRef .tc main_arg0) = Kn ∧ after (tap14 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap15 : List (HloOp τ sig (Elt F)) :=
  [ unary main_v0 main_v107 ((extractStridedSlice S2x32x256x256 ![0, 0, 3, 0] · slices_S2x32x260x260_S2x32x256x256_0_0_3_0) : (⟨S2x32x260x260, .f32⟩ : BufTy).Contents (Elt F) → (⟨S2x32x256x256, .f32⟩ : BufTy).Contents (Elt F)),
    unary main_arg0 main_v108 ((extractStridedSlice S2x1x1x256x256 ![0, 3, 0, 0, 0] · slices_S2x5x5x256x256_S2x1x1x256x256_0_3_0_0_0) : (⟨S2x5x5x256x256, .f32⟩ : BufTy).Contents (Elt F) → (⟨S2x1x1x256x256, .f32⟩ : BufTy).Contents (Elt F)),
    reshape main_v108 main_v109 rfl shapeCasts_S2x1x1x256x256_S2x256x256,
    unary main_v109 main_v110 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v110 main_v111 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v107 main_v111 main_v112 (mulf : (⟨S2x32x256x256, .f32⟩ : BufTy).Contents (Elt F) → (⟨S2x32x256x256, .f32⟩ : BufTy).Contents (Elt F) → (⟨S2x32x256x256, .f32⟩ : BufTy).Contents (Elt F)),
    binary main_v106 main_v112 main_v113 (addf : (⟨S2x32x256x256, .f32⟩ : BufTy).Contents (Elt F) → (⟨S2x32x256x256, .f32⟩ : BufTy).Contents (Elt F) → (⟨S2x32x256x256, .f32⟩ : BufTy).Contents (Elt F)) ]
theorem tap15_step (W : Valuation τ sig (Elt Ideal)) (acc : SX.Idx → EReal) (P : SP.Idx → EReal) (Kn : SK.Idx → EReal) (X : SX.Idx → EReal)
    (h : W (Proc.devRef .tc main_v106) = acc ∧ W (Proc.devRef .tc main_v0) = P ∧ W (Proc.devRef .tc main_arg0) = Kn ∧ W (Proc.devRef .tc main_arg1) = X) :
    after (tap15 (F := Ideal)) W (Proc.devRef .tc main_v113) = stage acc P Kn 3 0 ∧ after (tap15 (F := Ideal)) W (Proc.devRef .tc main_v0) = P
    ∧ after (tap15 (F := Ideal)) W (Proc.devRef .tc main_arg0) = Kn ∧ after (tap15 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap16a : List (HloOp τ sig (Elt F)) :=
  [ unary main_v0 main_v114 ((extractStridedSlice S2x32x256x256 ![0, 0, 3, 1] · slices_S2x32x260x260_S2x32x256x256_0_0_3_1) : (⟨S2x32x260x260, .f32⟩ : BufTy).Contents (Elt F) → (⟨S2x32x256x256, .f32⟩ : BufTy).Contents (Elt F)),
    unary main_arg0 main_v115 ((extractStridedSlice S2x1x1x256x256 ![0, 3, 1, 0, 0] · slices_S2x5x5x256x256_S2x1x1x256x256_0_3_1_0_0) : (⟨S2x5x5x256x256, .f32⟩ : BufTy).Contents (Elt F) → (⟨S2x1x1x256x256, .f32⟩ : BufTy).Contents (Elt F)),
    reshape main_v115 main_v116 rfl shapeCasts_S2x1x1x256x256_S2x256x256,
    unary main_v116 main_v117 (broadcastInDim S2x1x256x256 ![0, 2, 3] bcast_S2x256x256_S2x1x256x256_0_2_3 : (⟨S2x256x256, .f32⟩ : BufTy).Contents (Elt F) → (⟨S2x1x256x256, .f32⟩ : BufTy).Contents (Elt F)) ]
abbrev tap16b : List (HloOp τ sig (Elt F)) :=
  [ unary main_v117 main_v118 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v114 main_v118 main_v119 (mulf : (⟨S2x32x256x256, .f32⟩ : BufTy).Contents (Elt F) → (⟨S2x32x256x256, .f32⟩ : BufTy).Contents (Elt F) → (⟨S2x32x256x256, .f32⟩ : BufTy).Contents (Elt F)),
    binary main_v113 main_v119 main_v120 (addf : (⟨S2x32x256x256, .f32⟩ : BufTy).Contents (Elt F) → (⟨S2x32x256x256, .f32⟩ : BufTy).Contents (Elt F) → (⟨S2x32x256x256, .f32⟩ : BufTy).Contents (Elt F)) ]
theorem tap16_step (W : Valuation τ sig (Elt Ideal)) (acc : SX.Idx → EReal) (P : SP.Idx → EReal) (Kn : SK.Idx → EReal) (X : SX.Idx → EReal)
    (h : W (Proc.devRef .tc main_v113) = acc ∧ W (Proc.devRef .tc main_v0) = P ∧ W (Proc.devRef .tc main_arg0) = Kn ∧ W (Proc.devRef .tc main_arg1) = X) :
    after (tap16b (F := Ideal)) (after (tap16a (F := Ideal)) W) (Proc.devRef .tc main_v120) = stage acc P Kn 3 1 ∧ after (tap16b (F := Ideal)) (after (tap16a (F := Ideal)) W) (Proc.devRef .tc main_v0) = P
    ∧ after (tap16b (F := Ideal)) (after (tap16a (F := Ideal)) W) (Proc.devRef .tc main_arg0) = Kn ∧ after (tap16b (F := Ideal)) (after (tap16a (F := Ideal)) W) (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap17 : List (HloOp τ sig (Elt F)) :=
  [ unary main_v0 main_v121 ((extractStridedSlice S2x32x256x256 ![0, 0, 3, 2] · slices_S2x32x260x260_S2x32x256x256_0_0_3_2) : (⟨S2x32x260x260, .f32⟩ : BufTy).Contents (Elt F) → (⟨S2x32x256x256, .f32⟩ : BufTy).Contents (Elt F)),
    unary main_arg0 main_v122 ((extractStridedSlice S2x1x1x256x256 ![0, 3, 2, 0, 0] · slices_S2x5x5x256x256_S2x1x1x256x256_0_3_2_0_0) : (⟨S2x5x5x256x256, .f32⟩ : BufTy).Contents (Elt F) → (⟨S2x1x1x256x256, .f32⟩ : BufTy).Contents (Elt F)),
    reshape main_v122 main_v123 rfl shapeCasts_S2x1x1x256x256_S2x256x256,
    unary main_v123 main_v124 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v124 main_v125 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v121 main_v125 main_v126 (mulf : (⟨S2x32x256x256, .f32⟩ : BufTy).Contents (Elt F) → (⟨S2x32x256x256, .f32⟩ : BufTy).Contents (Elt F) → (⟨S2x32x256x256, .f32⟩ : BufTy).Contents (Elt F)),
    binary main_v120 main_v126 main_v127 (addf : (⟨S2x32x256x256, .f32⟩ : BufTy).Contents (Elt F) → (⟨S2x32x256x256, .f32⟩ : BufTy).Contents (Elt F) → (⟨S2x32x256x256, .f32⟩ : BufTy).Contents (Elt F)) ]
theorem tap17_step (W : Valuation τ sig (Elt Ideal)) (acc : SX.Idx → EReal) (P : SP.Idx → EReal) (Kn : SK.Idx → EReal) (X : SX.Idx → EReal)
    (h : W (Proc.devRef .tc main_v120) = acc ∧ W (Proc.devRef .tc main_v0) = P ∧ W (Proc.devRef .tc main_arg0) = Kn ∧ W (Proc.devRef .tc main_arg1) = X) :
    after (tap17 (F := Ideal)) W (Proc.devRef .tc main_v127) = stage acc P Kn 3 2 ∧ after (tap17 (F := Ideal)) W (Proc.devRef .tc main_v0) = P
    ∧ after (tap17 (F := Ideal)) W (Proc.devRef .tc main_arg0) = Kn ∧ after (tap17 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap18 : List (HloOp τ sig (Elt F)) :=
  [ unary main_v0 main_v128 ((extractStridedSlice S2x32x256x256 ![0, 0, 3, 3] · slices_S2x32x260x260_S2x32x256x256_0_0_3_3) : (⟨S2x32x260x260, .f32⟩ : BufTy).Contents (Elt F) → (⟨S2x32x256x256, .f32⟩ : BufTy).Contents (Elt F)),
    unary main_arg0 main_v129 ((extractStridedSlice S2x1x1x256x256 ![0, 3, 3, 0, 0] · slices_S2x5x5x256x256_S2x1x1x256x256_0_3_3_0_0) : (⟨S2x5x5x256x256, .f32⟩ : BufTy).Contents (Elt F) → (⟨S2x1x1x256x256, .f32⟩ : BufTy).Contents (Elt F)),
    reshape main_v129 main_v130 rfl shapeCasts_S2x1x1x256x256_S2x256x256,
    unary main_v130 main_v131 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v131 main_v132 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v128 main_v132 main_v133 (mulf : (⟨S2x32x256x256, .f32⟩ : BufTy).Contents (Elt F) → (⟨S2x32x256x256, .f32⟩ : BufTy).Contents (Elt F) → (⟨S2x32x256x256, .f32⟩ : BufTy).Contents (Elt F)),
    binary main_v127 main_v133 main_v134 (addf : (⟨S2x32x256x256, .f32⟩ : BufTy).Contents (Elt F) → (⟨S2x32x256x256, .f32⟩ : BufTy).Contents (Elt F) → (⟨S2x32x256x256, .f32⟩ : BufTy).Contents (Elt F)) ]
theorem tap18_step (W : Valuation τ sig (Elt Ideal)) (acc : SX.Idx → EReal) (P : SP.Idx → EReal) (Kn : SK.Idx → EReal) (X : SX.Idx → EReal)
    (h : W (Proc.devRef .tc main_v127) = acc ∧ W (Proc.devRef .tc main_v0) = P ∧ W (Proc.devRef .tc main_arg0) = Kn ∧ W (Proc.devRef .tc main_arg1) = X) :
    after (tap18 (F := Ideal)) W (Proc.devRef .tc main_v134) = stage acc P Kn 3 3 ∧ after (tap18 (F := Ideal)) W (Proc.devRef .tc main_v0) = P
    ∧ after (tap18 (F := Ideal)) W (Proc.devRef .tc main_arg0) = Kn ∧ after (tap18 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap19 : List (HloOp τ sig (Elt F)) :=
  [ unary main_v0 main_v135 ((extractStridedSlice S2x32x256x256 ![0, 0, 3, 4] · slices_S2x32x260x260_S2x32x256x256_0_0_3_4) : (⟨S2x32x260x260, .f32⟩ : BufTy).Contents (Elt F) → (⟨S2x32x256x256, .f32⟩ : BufTy).Contents (Elt F)),
    unary main_arg0 main_v136 ((extractStridedSlice S2x1x1x256x256 ![0, 3, 4, 0, 0] · slices_S2x5x5x256x256_S2x1x1x256x256_0_3_4_0_0) : (⟨S2x5x5x256x256, .f32⟩ : BufTy).Contents (Elt F) → (⟨S2x1x1x256x256, .f32⟩ : BufTy).Contents (Elt F)),
    reshape main_v136 main_v137 rfl shapeCasts_S2x1x1x256x256_S2x256x256,
    unary main_v137 main_v138 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v138 main_v139 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v135 main_v139 main_v140 (mulf : (⟨S2x32x256x256, .f32⟩ : BufTy).Contents (Elt F) → (⟨S2x32x256x256, .f32⟩ : BufTy).Contents (Elt F) → (⟨S2x32x256x256, .f32⟩ : BufTy).Contents (Elt F)),
    binary main_v134 main_v140 main_v141 (addf : (⟨S2x32x256x256, .f32⟩ : BufTy).Contents (Elt F) → (⟨S2x32x256x256, .f32⟩ : BufTy).Contents (Elt F) → (⟨S2x32x256x256, .f32⟩ : BufTy).Contents (Elt F)) ]
theorem tap19_step (W : Valuation τ sig (Elt Ideal)) (acc : SX.Idx → EReal) (P : SP.Idx → EReal) (Kn : SK.Idx → EReal) (X : SX.Idx → EReal)
    (h : W (Proc.devRef .tc main_v134) = acc ∧ W (Proc.devRef .tc main_v0) = P ∧ W (Proc.devRef .tc main_arg0) = Kn ∧ W (Proc.devRef .tc main_arg1) = X) :
    after (tap19 (F := Ideal)) W (Proc.devRef .tc main_v141) = stage acc P Kn 3 4 ∧ after (tap19 (F := Ideal)) W (Proc.devRef .tc main_v0) = P
    ∧ after (tap19 (F := Ideal)) W (Proc.devRef .tc main_arg0) = Kn ∧ after (tap19 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap20 : List (HloOp τ sig (Elt F)) :=
  [ unary main_v0 main_v142 ((extractStridedSlice S2x32x256x256 ![0, 0, 4, 0] · slices_S2x32x260x260_S2x32x256x256_0_0_4_0) : (⟨S2x32x260x260, .f32⟩ : BufTy).Contents (Elt F) → (⟨S2x32x256x256, .f32⟩ : BufTy).Contents (Elt F)),
    unary main_arg0 main_v143 ((extractStridedSlice S2x1x1x256x256 ![0, 4, 0, 0, 0] · slices_S2x5x5x256x256_S2x1x1x256x256_0_4_0_0_0) : (⟨S2x5x5x256x256, .f32⟩ : BufTy).Contents (Elt F) → (⟨S2x1x1x256x256, .f32⟩ : BufTy).Contents (Elt F)),
    reshape main_v143 main_v144 rfl shapeCasts_S2x1x1x256x256_S2x256x256,
    unary main_v144 main_v145 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v145 main_v146 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v142 main_v146 main_v147 (mulf : (⟨S2x32x256x256, .f32⟩ : BufTy).Contents (Elt F) → (⟨S2x32x256x256, .f32⟩ : BufTy).Contents (Elt F) → (⟨S2x32x256x256, .f32⟩ : BufTy).Contents (Elt F)),
    binary main_v141 main_v147 main_v148 (addf : (⟨S2x32x256x256, .f32⟩ : BufTy).Contents (Elt F) → (⟨S2x32x256x256, .f32⟩ : BufTy).Contents (Elt F) → (⟨S2x32x256x256, .f32⟩ : BufTy).Contents (Elt F)) ]
theorem tap20_step (W : Valuation τ sig (Elt Ideal)) (acc : SX.Idx → EReal) (P : SP.Idx → EReal) (Kn : SK.Idx → EReal) (X : SX.Idx → EReal)
    (h : W (Proc.devRef .tc main_v141) = acc ∧ W (Proc.devRef .tc main_v0) = P ∧ W (Proc.devRef .tc main_arg0) = Kn ∧ W (Proc.devRef .tc main_arg1) = X) :
    after (tap20 (F := Ideal)) W (Proc.devRef .tc main_v148) = stage acc P Kn 4 0 ∧ after (tap20 (F := Ideal)) W (Proc.devRef .tc main_v0) = P
    ∧ after (tap20 (F := Ideal)) W (Proc.devRef .tc main_arg0) = Kn ∧ after (tap20 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap21 : List (HloOp τ sig (Elt F)) :=
  [ unary main_v0 main_v149 ((extractStridedSlice S2x32x256x256 ![0, 0, 4, 1] · slices_S2x32x260x260_S2x32x256x256_0_0_4_1) : (⟨S2x32x260x260, .f32⟩ : BufTy).Contents (Elt F) → (⟨S2x32x256x256, .f32⟩ : BufTy).Contents (Elt F)),
    unary main_arg0 main_v150 ((extractStridedSlice S2x1x1x256x256 ![0, 4, 1, 0, 0] · slices_S2x5x5x256x256_S2x1x1x256x256_0_4_1_0_0) : (⟨S2x5x5x256x256, .f32⟩ : BufTy).Contents (Elt F) → (⟨S2x1x1x256x256, .f32⟩ : BufTy).Contents (Elt F)),
    reshape main_v150 main_v151 rfl shapeCasts_S2x1x1x256x256_S2x256x256,
    unary main_v151 main_v152 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v152 main_v153 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v149 main_v153 main_v154 (mulf : (⟨S2x32x256x256, .f32⟩ : BufTy).Contents (Elt F) → (⟨S2x32x256x256, .f32⟩ : BufTy).Contents (Elt F) → (⟨S2x32x256x256, .f32⟩ : BufTy).Contents (Elt F)),
    binary main_v148 main_v154 main_v155 (addf : (⟨S2x32x256x256, .f32⟩ : BufTy).Contents (Elt F) → (⟨S2x32x256x256, .f32⟩ : BufTy).Contents (Elt F) → (⟨S2x32x256x256, .f32⟩ : BufTy).Contents (Elt F)) ]
theorem tap21_step (W : Valuation τ sig (Elt Ideal)) (acc : SX.Idx → EReal) (P : SP.Idx → EReal) (Kn : SK.Idx → EReal) (X : SX.Idx → EReal)
    (h : W (Proc.devRef .tc main_v148) = acc ∧ W (Proc.devRef .tc main_v0) = P ∧ W (Proc.devRef .tc main_arg0) = Kn ∧ W (Proc.devRef .tc main_arg1) = X) :
    after (tap21 (F := Ideal)) W (Proc.devRef .tc main_v155) = stage acc P Kn 4 1 ∧ after (tap21 (F := Ideal)) W (Proc.devRef .tc main_v0) = P
    ∧ after (tap21 (F := Ideal)) W (Proc.devRef .tc main_arg0) = Kn ∧ after (tap21 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap22 : List (HloOp τ sig (Elt F)) :=
  [ unary main_v0 main_v156 ((extractStridedSlice S2x32x256x256 ![0, 0, 4, 2] · slices_S2x32x260x260_S2x32x256x256_0_0_4_2) : (⟨S2x32x260x260, .f32⟩ : BufTy).Contents (Elt F) → (⟨S2x32x256x256, .f32⟩ : BufTy).Contents (Elt F)),
    unary main_arg0 main_v157 ((extractStridedSlice S2x1x1x256x256 ![0, 4, 2, 0, 0] · slices_S2x5x5x256x256_S2x1x1x256x256_0_4_2_0_0) : (⟨S2x5x5x256x256, .f32⟩ : BufTy).Contents (Elt F) → (⟨S2x1x1x256x256, .f32⟩ : BufTy).Contents (Elt F)),
    reshape main_v157 main_v158 rfl shapeCasts_S2x1x1x256x256_S2x256x256,
    unary main_v158 main_v159 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v159 main_v160 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v156 main_v160 main_v161 (mulf : (⟨S2x32x256x256, .f32⟩ : BufTy).Contents (Elt F) → (⟨S2x32x256x256, .f32⟩ : BufTy).Contents (Elt F) → (⟨S2x32x256x256, .f32⟩ : BufTy).Contents (Elt F)),
    binary main_v155 main_v161 main_v162 (addf : (⟨S2x32x256x256, .f32⟩ : BufTy).Contents (Elt F) → (⟨S2x32x256x256, .f32⟩ : BufTy).Contents (Elt F) → (⟨S2x32x256x256, .f32⟩ : BufTy).Contents (Elt F)) ]
theorem tap22_step (W : Valuation τ sig (Elt Ideal)) (acc : SX.Idx → EReal) (P : SP.Idx → EReal) (Kn : SK.Idx → EReal) (X : SX.Idx → EReal)
    (h : W (Proc.devRef .tc main_v155) = acc ∧ W (Proc.devRef .tc main_v0) = P ∧ W (Proc.devRef .tc main_arg0) = Kn ∧ W (Proc.devRef .tc main_arg1) = X) :
    after (tap22 (F := Ideal)) W (Proc.devRef .tc main_v162) = stage acc P Kn 4 2 ∧ after (tap22 (F := Ideal)) W (Proc.devRef .tc main_v0) = P
    ∧ after (tap22 (F := Ideal)) W (Proc.devRef .tc main_arg0) = Kn ∧ after (tap22 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap23 : List (HloOp τ sig (Elt F)) :=
  [ unary main_v0 main_v163 ((extractStridedSlice S2x32x256x256 ![0, 0, 4, 3] · slices_S2x32x260x260_S2x32x256x256_0_0_4_3) : (⟨S2x32x260x260, .f32⟩ : BufTy).Contents (Elt F) → (⟨S2x32x256x256, .f32⟩ : BufTy).Contents (Elt F)),
    unary main_arg0 main_v164 ((extractStridedSlice S2x1x1x256x256 ![0, 4, 3, 0, 0] · slices_S2x5x5x256x256_S2x1x1x256x256_0_4_3_0_0) : (⟨S2x5x5x256x256, .f32⟩ : BufTy).Contents (Elt F) → (⟨S2x1x1x256x256, .f32⟩ : BufTy).Contents (Elt F)),
    reshape main_v164 main_v165 rfl shapeCasts_S2x1x1x256x256_S2x256x256,
    unary main_v165 main_v166 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v166 main_v167 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v163 main_v167 main_v168 (mulf : (⟨S2x32x256x256, .f32⟩ : BufTy).Contents (Elt F) → (⟨S2x32x256x256, .f32⟩ : BufTy).Contents (Elt F) → (⟨S2x32x256x256, .f32⟩ : BufTy).Contents (Elt F)),
    binary main_v162 main_v168 main_v169 (addf : (⟨S2x32x256x256, .f32⟩ : BufTy).Contents (Elt F) → (⟨S2x32x256x256, .f32⟩ : BufTy).Contents (Elt F) → (⟨S2x32x256x256, .f32⟩ : BufTy).Contents (Elt F)) ]
theorem tap23_step (W : Valuation τ sig (Elt Ideal)) (acc : SX.Idx → EReal) (P : SP.Idx → EReal) (Kn : SK.Idx → EReal) (X : SX.Idx → EReal)
    (h : W (Proc.devRef .tc main_v162) = acc ∧ W (Proc.devRef .tc main_v0) = P ∧ W (Proc.devRef .tc main_arg0) = Kn ∧ W (Proc.devRef .tc main_arg1) = X) :
    after (tap23 (F := Ideal)) W (Proc.devRef .tc main_v169) = stage acc P Kn 4 3 ∧ after (tap23 (F := Ideal)) W (Proc.devRef .tc main_v0) = P
    ∧ after (tap23 (F := Ideal)) W (Proc.devRef .tc main_arg0) = Kn ∧ after (tap23 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

abbrev tap24 : List (HloOp τ sig (Elt F)) :=
  [ unary main_v0 main_v170 ((extractStridedSlice S2x32x256x256 ![0, 0, 4, 4] · slices_S2x32x260x260_S2x32x256x256_0_0_4_4) : (⟨S2x32x260x260, .f32⟩ : BufTy).Contents (Elt F) → (⟨S2x32x256x256, .f32⟩ : BufTy).Contents (Elt F)),
    unary main_arg0 main_v171 ((extractStridedSlice S2x1x1x256x256 ![0, 4, 4, 0, 0] · slices_S2x5x5x256x256_S2x1x1x256x256_0_4_4_0_0) : (⟨S2x5x5x256x256, .f32⟩ : BufTy).Contents (Elt F) → (⟨S2x1x1x256x256, .f32⟩ : BufTy).Contents (Elt F)),
    reshape main_v171 main_v172 rfl shapeCasts_S2x1x1x256x256_S2x256x256,
    unary main_v172 main_v173 (broadcastInDim S2x1x256x256 ![0, 2, 3] bcast_S2x256x256_S2x1x256x256_0_2_3 : (⟨S2x256x256, .f32⟩ : BufTy).Contents (Elt F) → (⟨S2x1x256x256, .f32⟩ : BufTy).Contents (Elt F)),
    unary main_v173 main_v174 (broadcastInDim S2x32x256x256 ![0, 1, 2, 3] bcast_S2x1x256x256_S2x32x256x256_0_1_2_3 : (⟨S2x1x256x256, .f32⟩ : BufTy).Contents (Elt F) → (⟨S2x32x256x256, .f32⟩ : BufTy).Contents (Elt F)),
    binary main_v170 main_v174 main_v175 (mulf : (⟨S2x32x256x256, .f32⟩ : BufTy).Contents (Elt F) → (⟨S2x32x256x256, .f32⟩ : BufTy).Contents (Elt F) → (⟨S2x32x256x256, .f32⟩ : BufTy).Contents (Elt F)),
    binary main_v169 main_v175 main_v176 (addf : (⟨S2x32x256x256, .f32⟩ : BufTy).Contents (Elt F) → (⟨S2x32x256x256, .f32⟩ : BufTy).Contents (Elt F) → (⟨S2x32x256x256, .f32⟩ : BufTy).Contents (Elt F)) ]
theorem tap24_step (W : Valuation τ sig (Elt Ideal)) (acc : SX.Idx → EReal) (P : SP.Idx → EReal) (Kn : SK.Idx → EReal) (X : SX.Idx → EReal)
    (h : W (Proc.devRef .tc main_v169) = acc ∧ W (Proc.devRef .tc main_v0) = P ∧ W (Proc.devRef .tc main_arg0) = Kn ∧ W (Proc.devRef .tc main_arg1) = X) :
    after (tap24 (F := Ideal)) W (Proc.devRef .tc main_v176) = stage acc P Kn 4 4 ∧ after (tap24 (F := Ideal)) W (Proc.devRef .tc main_v0) = P
    ∧ after (tap24 (F := Ideal)) W (Proc.devRef .tc main_arg0) = Kn ∧ after (tap24 (F := Ideal)) W (Proc.devRef .tc main_arg1) = X := by
  obtain ⟨h1, h2, h3, h4⟩ := h
  refine ⟨?_, ?_, ?_, ?_⟩
  · rw [← h1, ← h2, ← h3]; after_results; rfl
  · rw [← h2]; after_results
  · rw [← h3]; after_results
  · rw [← h4]; after_results

end Cert.RefOps

end
-- ==== Proof.RefRun.lean ====
/-
  The host program's run, and its result.

  The host program is a straight line of 180 operations: five that make the zero array and the padded
  map, then seven per tap.  It is printed in three parts; each part is the line of its operations, so
  the whole is the line of them all, and every execution ends with each buffer at what the operations,
  in order, leave in it.  Taken tap by tap from the five leading operations on, the last buffer holds
  the 25 stages composed — the filtered map of the arguments — and the arguments are as they were.
-/
import proofs.«125306_j47708496724546_2_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo
open Cert.Spec Cert.HostTap Cert.RefOps

/-- The three printed parts of the program as lines of operations, and the whole. -/
abbrev w0 : List (HloOp τ sig (Elt Ideal)) := pre ++ tap0 ++ tap1 ++ tap2 ++ tap3 ++ tap4 ++ tap5 ++ tap6 ++ tap7
abbrev w1 : List (HloOp τ sig (Elt Ideal)) := tap8 ++ tap9 ++ tap10 ++ tap11 ++ tap12 ++ tap13 ++ tap14 ++ tap15 ++ tap16a
abbrev w2 : List (HloOp τ sig (Elt Ideal)) := tap16b ++ tap17 ++ tap18 ++ tap19 ++ tap20 ++ tap21 ++ tap22 ++ tap23 ++ tap24
abbrev ops : List (HloOp τ sig (Elt Ideal)) := w0 ++ (w1 ++ w2)

set_option maxRecDepth 8192 in
theorem part0_eq (c : Dev nD) : main_part0 (F := Ideal) c = seq w0 := rfl
set_option maxRecDepth 8192 in
theorem part1_eq (c : Dev nD) : main_part1 (F := Ideal) c = seq w1 := rfl
set_option maxRecDepth 8192 in
theorem part2_eq (c : Dev nD) : main_part2 (F := Ideal) c = seq w2 := rfl

/-- The program is the line of its operations. -/
theorem main_eq (c : Dev nD) : main (F := Ideal) c = seq ops := by
  show (main_part0 (F := Ideal) c >>= fun _ => main_part1 (F := Ideal) c >>= fun _ => main_part2 (F := Ideal) c) = seq ops
  rw [part0_eq, part1_eq, part2_eq, seq_append w0 (w1 ++ w2), seq_append w1 w2]

theorem scopedRefs_eq : (Finset.univ.filter fun b : Ref sig .tc => b.isScoped) = ∅ := by decide
theorem scopedSems_eq : (Finset.univ.filter fun sm : SemLoc sig => sm.isScoped .tc) = ∅ := by decide

/-- What one line followed by another leaves is what the second leaves of what the first left. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- Every operation reads and writes TensorCore buffers only. -/
theorem ops_sub : (ops : List (HloOp τ sig (Elt Ideal))).Forall fun op => op.bufs ⊆ tcRefs τ sig := by
  simp only [ops, w0, w1, w2, pre, tap0, tap1, tap2, tap3, tap4, tap5, tap6, tap7, tap8, tap9, tap10, tap11, tap12, tap13,
    tap14, tap15, tap16a, tap16b, tap17, tap18, tap19, tap20, tap21, tap22, tap23, tap24, List.cons_append, List.nil_append,
    List.append_assoc, List.Forall, nullary_bufs_sub, unary_bufs_sub, binary_bufs_sub, reshape_bufs_sub, and_self]

/-- Every operation determines its results. -/
theorem ops_fresh : ∀ op ∈ (ops : List (HloOp τ sig (Elt Ideal))), op.fresh = ∅ :=
  List.forall_iff_forall_mem.mp (by
    simp only [ops, w0, w1, w2, pre, tap0, tap1, tap2, tap3, tap4, tap5, tap6, tap7, tap8, tap9, tap10, tap11, tap12, tap13,
      tap14, tap15, tap16a, tap16b, tap17, tap18, tap19, tap20, tap21, tap22, tap23, tap24, List.cons_append, List.nil_append,
      List.append_assoc, List.Forall]
    repeat' constructor)

/-- WHAT THE OPERATIONS LEAVE: the result buffer at the 25 stages composed, the padded map, and the arguments as they were. -/
theorem chain (V : Valuation τ sig (Elt Ideal)) :
    after ops V (Proc.devRef .tc main_v176) = refTerm (V (Proc.devRef .tc main_arg0)) (V (Proc.devRef .tc main_arg1))
    ∧ after ops V (Proc.devRef .tc main_v0) = padded (V (Proc.devRef .tc main_arg1))
    ∧ after ops V (Proc.devRef .tc main_arg0) = V (Proc.devRef .tc main_arg0)
    ∧ after ops V (Proc.devRef .tc main_arg1) = V (Proc.devRef .tc main_arg1) := by
  simp only [ops, w0, w1, w2, after_append]
  exact tap24_step _ _ _ _ _ (tap23_step _ _ _ _ _ (tap22_step _ _ _ _ _ (tap21_step _ _ _ _ _ (tap20_step _ _ _ _ _
    (tap19_step _ _ _ _ _ (tap18_step _ _ _ _ _ (tap17_step _ _ _ _ _ (tap16_step _ _ _ _ _ (tap15_step _ _ _ _ _
    (tap14_step _ _ _ _ _ (tap13_step _ _ _ _ _ (tap12_step _ _ _ _ _ (tap11_step _ _ _ _ _ (tap10_step _ _ _ _ _
    (tap9_step _ _ _ _ _ (tap8_step _ _ _ _ _ (tap7_step _ _ _ _ _ (tap6_step _ _ _ _ _ (tap5_step _ _ _ _ _
    (tap4_step _ _ _ _ _ (tap3_step _ _ _ _ _ (tap2_step _ _ _ _ _ (tap1_step _ _ _ _ _ (tap0_step _ _ _ _ _
    (pre_step V)))))))))))))))))))))))))

/-- The filtered map of the two argument arrays, as the result buffer's contents. -/
abbrev result (m : (ℓ : Loc nD τ sig) → Buf (Elt Ideal) ℓ) (c : Dev nD) : Buf (Elt Ideal) ((c.tc : Thread nD τ).loc main_v176) :=
  filtered (m ((c.tc : Thread nD τ).loc main_arg0) : S2x5x5x256x256.Idx → Elt Ideal .f32)
    (m ((c.tc : Thread nD τ).loc main_arg1) : S2x32x256x256.Idx → Elt Ideal .f32)

/-- THE RUN: every weakly fair execution of the host program terminates with its result buffer at the filtered map of the
    arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v176) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v176).trans ((chain (launchContents m c)).1.trans (refTerm_eq _ _)),
        (h c main_arg0).trans (chain (launchContents m c)).2.2.1,
        (h c main_arg1).trans (chain (launchContents m c)).2.2.2⟩)
    (run_seq scopedRefs_eq scopedSems_eq defs main (fun _ => ops) main_eq (fun _ => ops_sub) m ρ (fun _ => ops_fresh))

end Cert.RefRun

end
-- ==== Proof.lean ====
/-
  A spatially varying 5x5 filter: out[b,ch,y,x] = sum over taps (i,j) of Xpad[b,ch,y+i,x+j] * Kn[b,i,j,y,x],
  with Xpad the feature map X padded by two zeros on every side of its two spatial axes.

  The kernel works on blocks of eight channels: it pads the block, and adds the 25 products one after
  another into its output block, the first store being the first product.  The host program pads the
  whole map and adds the same 25 products, in the same order, onto an array of zeros.  Over the extended
  reals both are the same left-to-right sum (0 + t = t), so no finiteness of the inputs is used:
  Proof/Spec.lean states the sum, Proof/KernelValue.lean shows the kernel's result array is it,
  Proof/RefRun.lean that the host program's is.
-/
import proofs.«125306_j47708496724546_2_alg».proof.Defs
import proofs.«125306_j47708496724546_2_alg».proof.Proof.Gen.Kernel
import proofs.«125306_j47708496724546_2_alg».proof.Proof.Gen.Kernel.Skeleton
import proofs.«125306_j47708496724546_2_alg».proof.Proof.Gen.Kernel.Launch
import proofs.«125306_j47708496724546_2_alg».proof.Proof.Gen.Kernel.Points
import proofs.«125306_j47708496724546_2_alg».proof.Proof.Gen.Kernel.Frame
import proofs.«125306_j47708496724546_2_alg».proof.Proof.Gen.KernelIdeal
import proofs.«125306_j47708496724546_2_alg».proof.Proof.Gen.KernelIdeal.Skeleton
import proofs.«125306_j47708496724546_2_alg».proof.Proof.Gen.KernelIdeal.Launch
import proofs.«125306_j47708496724546_2_alg».proof.Proof.Gen.KernelIdeal.Points
import proofs.«125306_j47708496724546_2_alg».proof.Proof.Gen.KernelIdeal.Frame
import proofs.«125306_j47708496724546_2_alg».proof.Proof.Gen.KernelIdeal.Value
import proofs.«125306_j47708496724546_2_alg».proof.Proof.Gen.ReferenceIdeal
import proofs.«125306_j47708496724546_2_alg».proof.Proof.Gen.Pre_finite_inputs
import proofs.«125306_j47708496724546_2_alg».proof.Proof.KernelValue
import proofs.«125306_j47708496724546_2_alg».proof.Proof.RefRun
import Idealize.ShloMosaic.Adequacy
import Idealize.ShloMosaic.Init

noncomputable section

namespace Cert.Proof

open Idealize.ShloMosaic Idealize.SL.Sem Cert.Kernel

/-- The two idealized programs, run from memories that agree on the arguments, end with the same result array: the
    filtered map of the arguments. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩) (Cert.RefRun.run m' ρ')
  show Cert.Spec.filtered _ _ = Cert.Spec.filtered _ _
  rw [(hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.RefRun.run m ρ),
  trivial,
  algebraic⟩

end Cert.Proof

end
